-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v87_0)) (v1 : (c : Dev Cert.KernelIdeal.nD) → Buf (Elt Ideal) ((c.tc : Thread Cert.KernelIdeal.nD Cert.KernelIdeal.τ).loc Cert.KernelIdeal.main_v87_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87_0) = v0 c
          ∧ r.2.mem ((c.tc : Thread Cert.KernelIdeal.nD Cert.KernelIdeal.τ).loc Cert.KernelIdeal.main_v87_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000x64 : S_.BroadcastsInDim S100000x64 (![] : Fin 0 → Fin S100000x64.rank)
  reducesTo_S100000x64_S_d0_1 : S100000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x64 .f32) (main_arg9 : FVec F S64 .f32) (main_arg10 : FVec F S128x64 .f32) (main_arg11 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_arg10 : FVec F S128x64 .f32) (main_arg11 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S1600000 .f32) (main_arg3 : FVec F S100000x64 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S5000x128 : Shape := ⟨2, ![5000, 128]⟩
abbrev S1x64 : Shape := ⟨2, ![1, 64]⟩
abbrev S5000x64 : Shape := ⟨2, ![5000, 64]⟩

abbrev nBuf : Space → Nat
  | .hbm => 124
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000x64, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000, .i32⟩
  | .hbm, ⟨17, _⟩ => ⟨S1700000, .i32⟩
  | .hbm, ⟨18, _⟩ => ⟨S1700000, .i32⟩
  | .hbm, ⟨19, _⟩ => ⟨S_, .f32⟩
  | .hbm, ⟨20, _⟩ => ⟨S100000, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000, .f32⟩
  | .hbm, ⟨60, _⟩ => ⟨S1700000, .f32⟩
  | .hbm, ⟨61, _⟩ => ⟨S100000x128, .bf16⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .bf16⟩
  | .hbm, ⟨71, _⟩ => ⟨S1700000x128, .f32⟩
  | .hbm, ⟨72, _⟩ => ⟨S1700000x1, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .bf16⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x128, .bf16⟩
  | .hbm, ⟨90, _⟩ => ⟨S1700000x128, .f32⟩
  | .hbm, ⟨91, _⟩ => ⟨S1700000x1, .f32⟩
  | .hbm, ⟨92, _⟩ => ⟨S1700000x128, .f32⟩
  | .hbm, ⟨93, _⟩ => ⟨S1700000x128, .f32⟩
  | .hbm, ⟨94, _⟩ => ⟨S_, .f32⟩
  | .hbm, ⟨95, _⟩ => ⟨S100000x128, .f32⟩
  | .hbm, ⟨96, _⟩ => ⟨S1700000x1, .i32⟩
  | .hbm, ⟨97, _⟩ => ⟨S100000x128, .f32⟩
  | .hbm, ⟨98, _⟩ => ⟨S128x128, .f32⟩
  | .hbm, ⟨99, _⟩ => ⟨S1x128, .f32⟩
  | .hbm, ⟨100, _⟩ => ⟨S100000x128, .bf16⟩
  | .hbm, ⟨101, _⟩ => ⟨S_, .i32⟩
  | .hbm, ⟨102, _⟩ => ⟨S1700000, .i32⟩
  | .hbm, ⟨103, _⟩ => ⟨S1700000, .i1⟩
  | .hbm, ⟨104, _⟩ => ⟨S_, .i32⟩
  | .hbm, ⟨105, _⟩ => ⟨S1700000, .i32⟩
  | .hbm, ⟨106, _⟩ => ⟨S1700000, .i32⟩
  | .hbm, ⟨107, _⟩ => ⟨S1700000, .i32⟩
  | .hbm, ⟨108, _⟩ => ⟨S1700000x1, .i32⟩
  | .hbm, ⟨109, _⟩ => ⟨S1700000x128, .bf16⟩
  | .hbm, ⟨110, _⟩ => ⟨S1700000x128, .f32⟩
  | .hbm, ⟨111, _⟩ => ⟨S1700000x1, .f32⟩
  | .hbm, ⟨112, _⟩ => ⟨S1700000x128, .f32⟩
  | .hbm, ⟨113, _⟩ => ⟨S1700000x128, .f32⟩
  | .hbm, ⟨114, _⟩ => ⟨S_, .f32⟩
  | .hbm, ⟨115, _⟩ => ⟨S100000x128, .f32⟩
  | .hbm, ⟨116, _⟩ => ⟨S1700000x1, .i32⟩
  | .hbm, ⟨117, _⟩ => ⟨S100000x128, .f32⟩
  | .hbm, ⟨118, _⟩ => ⟨S100000x64, .f32⟩
  | .hbm, ⟨119, _⟩ => ⟨S100000x64, .f32⟩
  | .hbm, ⟨120, _⟩ => ⟨S1x64, .f32⟩
  | .hbm, ⟨121, _⟩ => ⟨S1x64, .f32⟩
  | .hbm, ⟨122, _⟩ => ⟨S100000x64, .f32⟩
  | .hbm, ⟨123, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .bf16⟩
  | .local _ .vmem, ⟨16, _⟩ => ⟨S5000x128, .bf16⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_14 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87_0 : Ref sig .tc := ⟨.hbm, 122, rfl⟩
abbrev main_v87_1 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc3_stg6_0 : Ref sig .tc := ⟨.vmem, 27, rfl⟩
abbrev cc3_stg6_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem4_0 : DmaSem sig := 23
abbrev cc3_sem4_1 : DmaSem sig := 24
abbrev cc3_sem5_0 : DmaSem sig := 25
abbrev cc3_sem5_1 : DmaSem sig := 26
abbrev cc3_sem6_0 : DmaSem sig := 27
abbrev cc3_sem6_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  packedbf16_S5000x128_S5000x128_0_0 : (Rect.unit (s := S5000x128) ![0, 0] S5000x128.size inb_S5000x128_S5000x128_0_0).PackedRows (EltTy.packing .bf16)
  concatenates_S128x64_S128x64_S128x128_d1 : Shape.Concatenates [S128x64, S128x64] S128x128 1
  shapeCasts_S128x128_S128x128 : S128x128.ShapeCasts S128x128
  slices_S100000x128_S100000x64_0_0 : S100000x128.Slices ![0, 0] S100000x64
  slices_S100000x128_S100000x64_0_64 : S100000x128.Slices ![0, 64] S100000x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .bf16 = 32 ∨ (Rect.block (s := S100000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .bf16 = 32 ∨ (Rect.block (s := S100000x128) S5000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v83) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg3) S5000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v87_0) S5000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v87_1) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 161
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000x64, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S128x64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S_, .f32⟩
  | 20 => ⟨S100000, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .i1⟩
  | 32 => ⟨S_, .f32⟩
  | 33 => ⟨S_, .f32⟩
  | 34 => ⟨S100000, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000, .f32⟩
  | 60 => ⟨S1700000, .f32⟩
  | 61 => ⟨S100000x128, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x1, .f32⟩
  | 72 => ⟨S1700000x128, .f32⟩
  | 73 => ⟨S1700000x128, .f32⟩
  | 74 => ⟨S_, .f32⟩
  | 75 => ⟨S100000x128, .f32⟩
  | 76 => ⟨S1700000x1, .i32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000x128, .f32⟩
  | 94 => ⟨S1700000x1, .f32⟩
  | 95 => ⟨S1700000x128, .f32⟩
  | 96 => ⟨S1700000x128, .f32⟩
  | 97 => ⟨S_, .f32⟩
  | 98 => ⟨S100000x128, .f32⟩
  | 99 => ⟨S1700000x1, .i32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x64, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x64, .f32⟩
  | 117 => ⟨S1700000x1, .f32⟩
  | 118 => ⟨S1700000x64, .f32⟩
  | 119 => ⟨S1700000x64, .f32⟩
  | 120 => ⟨S_, .f32⟩
  | 121 => ⟨S100000x64, .f32⟩
  | 122 => ⟨S1700000x1, .i32⟩
  | 123 => ⟨S100000x64, .f32⟩
  | 124 => ⟨S1x64, .f32⟩
  | 125 => ⟨S100000x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x64, .f32⟩
  | 9 => ⟨S1700000x1, .f32⟩
  | 10 => ⟨S1700000x64, .f32⟩
  | 11 => ⟨S1700000x64, .f32⟩
  | 12 => ⟨S_, .f32⟩
  | 13 => ⟨S100000x64, .f32⟩
  | 14 => ⟨S1700000x1, .i32⟩
  | 15 => ⟨S100000x64, .f32⟩
  | 16 => ⟨S1x64, .f32⟩
  | 17 => ⟨S100000x64, .f32⟩
  | 18 => ⟨S100000x64, .f32⟩
  | 19 => ⟨S100000x64, .f32⟩
  | 20 => ⟨S100000x64, .f32⟩
  | 21 => ⟨S100000x64, .f32⟩
  | 22 => ⟨S100000x64, .f32⟩
  | 23 => ⟨S100000x64, .f32⟩
  | 24 => ⟨S100000x64, .f32⟩
  | 25 => ⟨S100000x64, .f32⟩
  | 26 => ⟨S_, .f32⟩
  | 27 => ⟨S100000x64, .f32⟩
  | 28 => ⟨S100000x64, .f32⟩
  | 29 => ⟨S_, .f32⟩
  | 30 => ⟨S100000x64, .f32⟩
  | 31 => ⟨S100000x64, .f32⟩
  | 32 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_cst : Ref sig .tc := ⟨.hbm, 81, rfl⟩
abbrev main_call2_v0 : Ref sig .tc := ⟨.hbm, 82, rfl⟩
abbrev main_v52 : Ref sig .tc := ⟨.hbm, 83, rfl⟩
abbrev main_v53 : Ref sig .tc := ⟨.hbm, 84, rfl⟩
abbrev main_c_11 : Ref sig .tc := ⟨.hbm, 85, rfl⟩
abbrev main_v54 : Ref sig .tc := ⟨.hbm, 86, rfl⟩
abbrev main_v55 : Ref sig .tc := ⟨.hbm, 87, rfl⟩
abbrev main_c_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call3_cst : Ref sig .tc := ⟨.hbm, 104, rfl⟩
abbrev main_call3_v0 : Ref sig .tc := ⟨.hbm, 105, rfl⟩
abbrev main_v70 : Ref sig .tc := ⟨.hbm, 106, rfl⟩
abbrev main_v71 : Ref sig .tc := ⟨.hbm, 107, rfl⟩
abbrev main_c_14 : Ref sig .tc := ⟨.hbm, 108, rfl⟩
abbrev main_v72 : Ref sig .tc := ⟨.hbm, 109, rfl⟩
abbrev main_v73 : Ref sig .tc := ⟨.hbm, 110, rfl⟩
abbrev main_c_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_17 : Ref sig .tc := ⟨.hbm, 128, rfl⟩
abbrev main_v89 : Ref sig .tc := ⟨.hbm, 129, rfl⟩
abbrev main_v90 : Ref sig .tc := ⟨.hbm, 130, rfl⟩
abbrev main_c_18 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_19 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_20 : Ref sig .tc := ⟨.hbm, 154, rfl⟩
abbrev main_v112 : Ref sig .tc := ⟨.hbm, 155, rfl⟩
abbrev main_v113 : Ref sig .tc := ⟨.hbm, 156, rfl⟩
abbrev main_cst_21 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel program's run with its two result arrays named.

  The program is four kernel launches among stretches of host operations. Its run ends with every unscoped buffer
  of a core at the last segment boundary's contents; read at the two result arrays, that is what the last launch's
  write-backs leave in its two output arrays, and the arguments are as launched.
-/
import proofs.«119687_j21904333209748_2_alg».proof.Proof.Gen.KernelIdeal.Frame

set_option maxRecDepth 16384

noncomputable section

namespace Cert.KernelIdeal.Values

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result arrays at the last
    boundary's contents and the arguments as launched. -/
theorem run_values : θ_run defs (onTc (τ := τ) (main (F := F))) ⟨m, fun _ => 0, ρ⟩ (fun r => ∀ c : Dev nD,
      r.2.mem ((c.tc : Thread nD τ).loc main_v87_0) = W12 m ρ c (Proc.devRef .tc main_v87_0)
      ∧ r.2.mem ((c.tc : Thread nD τ).loc main_v87_1) = W12 m ρ c (Proc.devRef .tc main_v87_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v87_0 (by decide)),
       h c _ (mem_uc main_v87_1 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Values

end
-- ==== Proof.KHost.lean ====
/-
  The host operations between the launches, read back.

  Between two launches the host program gathers rows of the previous launch's output by the edges' source nodes,
  scales them by the edge weights and scatters them with accumulation to the edges' target rows (`aggK`), and
  reshapes a bias vector to one row; before the third launch it also joins the two heads' weight matrices side by
  side, and before the last it cuts the aggregated head into its two blocks of 64 columns. No host operation and no
  launch writes an argument array, the edge lists or the edge weights once they are computed, so those are read at
  any later boundary as they were computed before the first launch.
-/
import proofs.«119687_j21904333209748_2_alg».proof.Proof.Gen.KernelIdeal.Frame
import Idealize.ShloMosaic.Lib.StableHlo.Run
import Idealize.ShloMosaic.Lib.ValueIdx

set_option maxRecDepth 16384

noncomputable section

namespace Cert.KernelIdeal.Values

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.StableHlo

variable (m : (ℓ : Loc nD τ sig) → Buf (Elt Ideal) ℓ) (ρ : Dev nD → PrngReg)

/-- A reference none of a stretch's operations writes holds after the stretch what it held before. -/
syntax "host_keep" ident : tactic
macro_rules
  | `(tactic| host_keep $ops:ident) => `(tactic|
      exact StableHlo.after_of_forall_not_mem _ _ (List.forall_iff_forall_mem.mp (by
        simp only [$ops:ident, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

/-! ## The arguments, at the boundary where each is read -/

theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by host_keep hostOps0_4
    _ = W3 m ρ c (Proc.devRef .tc main_arg0) := by host_keep hostOps0_3
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0
    _ = m ((c : Thread nD τ).loc main_arg0) := rfl

theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by host_keep hostOps0_4
    _ = W3 m ρ c (Proc.devRef .tc main_arg4) := by host_keep hostOps0_3
    _ = W2 m ρ c (Proc.devRef .tc main_arg4) := by host_keep hostOps0_2
    _ = W1 m ρ c (Proc.devRef .tc main_arg4) := by host_keep hostOps0_1
    _ = W0 m ρ c (Proc.devRef .tc main_arg4) := by host_keep hostOps0
    _ = m ((c : Thread nD τ).loc main_arg4) := rfl

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keep hostOps0_4
    _ = W3 m ρ c (Proc.devRef .tc main_arg5) := by host_keep hostOps0_3
    _ = W2 m ρ c (Proc.devRef .tc main_arg5) := by host_keep hostOps0_2
    _ = W1 m ρ c (Proc.devRef .tc main_arg5) := by host_keep hostOps0_1
    _ = W0 m ρ c (Proc.devRef .tc main_arg5) := by host_keep hostOps0
    _ = m ((c : Thread nD τ).loc main_arg5) := rfl

theorem W7_arg6 (c : Dev nD) : W7 m ρ c (Proc.devRef .tc main_arg6) = m ((c : Thread nD τ).loc main_arg6) :=
  calc W7 m ρ c (Proc.devRef .tc main_arg6)
    _ = W6 m ρ c (Proc.devRef .tc main_arg6) := by host_keep hostOps1
    _ = W5 m ρ c (Proc.devRef .tc main_arg6) := W6_of_ne m ρ c main_arg6 (by decide)
    _ = W4 m ρ c (Proc.devRef .tc main_arg6) := by host_keep hostOps0_4
    _ = W3 m ρ c (Proc.devRef .tc main_arg6) := by host_keep hostOps0_3
    _ = W2 m ρ c (Proc.devRef .tc main_arg6) := by host_keep hostOps0_2
    _ = W1 m ρ c (Proc.devRef .tc main_arg6) := by host_keep hostOps0_1
    _ = W0 m ρ c (Proc.devRef .tc main_arg6) := by host_keep hostOps0
    _ = m ((c : Thread nD τ).loc main_arg6) := rfl

theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by host_keep hostOps1
    _ = W5 m ρ c (Proc.devRef .tc main_arg7) := W6_of_ne m ρ c main_arg7 (by decide)
    _ = W4 m ρ c (Proc.devRef .tc main_arg7) := by host_keep hostOps0_4
    _ = W3 m ρ c (Proc.devRef .tc main_arg7) := by host_keep hostOps0_3
    _ = W2 m ρ c (Proc.devRef .tc main_arg7) := by host_keep hostOps0_2
    _ = W1 m ρ c (Proc.devRef .tc main_arg7) := by host_keep hostOps0_1
    _ = W0 m ρ c (Proc.devRef .tc main_arg7) := by host_keep hostOps0
    _ = m ((c : Thread nD τ).loc main_arg7) := rfl

theorem W8_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by host_keep hostOps1
    _ = W5 m ρ c (Proc.devRef .tc main_arg8) := W6_of_ne m ρ c main_arg8 (by decide)
    _ = W4 m ρ c (Proc.devRef .tc main_arg8) := by host_keep hostOps0_4
    _ = W3 m ρ c (Proc.devRef .tc main_arg8) := by host_keep hostOps0_3
    _ = W2 m ρ c (Proc.devRef .tc main_arg8) := by host_keep hostOps0_2
    _ = W1 m ρ c (Proc.devRef .tc main_arg8) := by host_keep hostOps0_1
    _ = W0 m ρ c (Proc.devRef .tc main_arg8) := by host_keep hostOps0
    _ = m ((c : Thread nD τ).loc main_arg8) := rfl

theorem W8_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := by host_keep hostOps1
    _ = W5 m ρ c (Proc.devRef .tc main_arg10) := W6_of_ne m ρ c main_arg10 (by decide)
    _ = W4 m ρ c (Proc.devRef .tc main_arg10) := by host_keep hostOps0_4
    _ = W3 m ρ c (Proc.devRef .tc main_arg10) := by host_keep hostOps0_3
    _ = W2 m ρ c (Proc.devRef .tc main_arg10) := by host_keep hostOps0_2
    _ = W1 m ρ c (Proc.devRef .tc main_arg10) := by host_keep hostOps0_1
    _ = W0 m ρ c (Proc.devRef .tc main_arg10) := by host_keep hostOps0
    _ = m ((c : Thread nD τ).loc main_arg10) := rfl

theorem W10_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := by host_keep hostOps2
    _ = W7 m ρ c (Proc.devRef .tc main_arg9) := W8_of_ne m ρ c main_arg9 (by decide)
    _ = W6 m ρ c (Proc.devRef .tc main_arg9) := by host_keep hostOps1
    _ = W5 m ρ c (Proc.devRef .tc main_arg9) := W6_of_ne m ρ c main_arg9 (by decide)
    _ = W4 m ρ c (Proc.devRef .tc main_arg9) := by host_keep hostOps0_4
    _ = W3 m ρ c (Proc.devRef .tc main_arg9) := by host_keep hostOps0_3
    _ = W2 m ρ c (Proc.devRef .tc main_arg9) := by host_keep hostOps0_2
    _ = W1 m ρ c (Proc.devRef .tc main_arg9) := by host_keep hostOps0_1
    _ = W0 m ρ c (Proc.devRef .tc main_arg9) := by host_keep hostOps0
    _ = m ((c : Thread nD τ).loc main_arg9) := rfl

theorem W10_arg11 (c : Dev nD) : W10 m ρ c (Proc.devRef .tc main_arg11) = m ((c : Thread nD τ).loc main_arg11) :=
  calc W10 m ρ c (Proc.devRef .tc main_arg11)
    _ = W9 m ρ c (Proc.devRef .tc main_arg11) := W10_of_ne m ρ c main_arg11 (by decide)
    _ = W8 m ρ c (Proc.devRef .tc main_arg11) := by host_keep hostOps2
    _ = W7 m ρ c (Proc.devRef .tc main_arg11) := W8_of_ne m ρ c main_arg11 (by decide)
    _ = W6 m ρ c (Proc.devRef .tc main_arg11) := by host_keep hostOps1
    _ = W5 m ρ c (Proc.devRef .tc main_arg11) := W6_of_ne m ρ c main_arg11 (by decide)
    _ = W4 m ρ c (Proc.devRef .tc main_arg11) := by host_keep hostOps0_4
    _ = W3 m ρ c (Proc.devRef .tc main_arg11) := by host_keep hostOps0_3
    _ = W2 m ρ c (Proc.devRef .tc main_arg11) := by host_keep hostOps0_2
    _ = W1 m ρ c (Proc.devRef .tc main_arg11) := by host_keep hostOps0_1
    _ = W0 m ρ c (Proc.devRef .tc main_arg11) := by host_keep hostOps0
    _ = m ((c : Thread nD τ).loc main_arg11) := rfl

theorem W11_arg3 (c : Dev nD) : W11 m ρ c (Proc.devRef .tc main_arg3) = m ((c : Thread nD τ).loc main_arg3) :=
  calc W11 m ρ c (Proc.devRef .tc main_arg3)
    _ = W10 m ρ c (Proc.devRef .tc main_arg3) := by host_keep hostOps3
    _ = W9 m ρ c (Proc.devRef .tc main_arg3) := W10_of_ne m ρ c main_arg3 (by decide)
    _ = W8 m ρ c (Proc.devRef .tc main_arg3) := by host_keep hostOps2
    _ = W7 m ρ c (Proc.devRef .tc main_arg3) := W8_of_ne m ρ c main_arg3 (by decide)
    _ = W6 m ρ c (Proc.devRef .tc main_arg3) := by host_keep hostOps1
    _ = W5 m ρ c (Proc.devRef .tc main_arg3) := W6_of_ne m ρ c main_arg3 (by decide)
    _ = W4 m ρ c (Proc.devRef .tc main_arg3) := by host_keep hostOps0_4
    _ = W3 m ρ c (Proc.devRef .tc main_arg3) := by host_keep hostOps0_3
    _ = W2 m ρ c (Proc.devRef .tc main_arg3) := by host_keep hostOps0_2
    _ = W1 m ρ c (Proc.devRef .tc main_arg3) := by host_keep hostOps0_1
    _ = W0 m ρ c (Proc.devRef .tc main_arg3) := by host_keep hostOps0
    _ = m ((c : Thread nD τ).loc main_arg3) := rfl

/-! ## The edge lists and the edge weights, at the later boundaries -/

theorem W6_v5 (c : Dev nD) : W6 m ρ c (Proc.devRef .tc main_v5) = W5 m ρ c (Proc.devRef .tc main_v5) :=
  calc W6 m ρ c (Proc.devRef .tc main_v5)
    _ = W5 m ρ c (Proc.devRef .tc main_v5) := W6_of_ne m ρ c main_v5 (by decide)

theorem W6_v6 (c : Dev nD) : W6 m ρ c (Proc.devRef .tc main_v6) = W5 m ρ c (Proc.devRef .tc main_v6) :=
  calc W6 m ρ c (Proc.devRef .tc main_v6)
    _ = W5 m ρ c (Proc.devRef .tc main_v6) := W6_of_ne m ρ c main_v6 (by decide)

theorem W6_v34 (c : Dev nD) : W6 m ρ c (Proc.devRef .tc main_v34) = W5 m ρ c (Proc.devRef .tc main_v34) :=
  calc W6 m ρ c (Proc.devRef .tc main_v34)
    _ = W5 m ρ c (Proc.devRef .tc main_v34) := W6_of_ne m ρ c main_v34 (by decide)

theorem W8_v5 (c : Dev nD) : W8 m ρ c (Proc.devRef .tc main_v5) = W5 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := by host_keep hostOps1
    _ = W5 m ρ c (Proc.devRef .tc main_v5) := W6_of_ne m ρ c main_v5 (by decide)

theorem W8_v6 (c : Dev nD) : W8 m ρ c (Proc.devRef .tc main_v6) = W5 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by host_keep hostOps1
    _ = W5 m ρ c (Proc.devRef .tc main_v6) := W6_of_ne m ρ c main_v6 (by decide)

theorem W8_v34 (c : Dev nD) : W8 m ρ c (Proc.devRef .tc main_v34) = W5 m ρ c (Proc.devRef .tc main_v34) :=
  calc W8 m ρ c (Proc.devRef .tc main_v34)
    _ = W7 m ρ c (Proc.devRef .tc main_v34) := W8_of_ne m ρ c main_v34 (by decide)
    _ = W6 m ρ c (Proc.devRef .tc main_v34) := by host_keep hostOps1
    _ = W5 m ρ c (Proc.devRef .tc main_v34) := W6_of_ne m ρ c main_v34 (by decide)

theorem W10_v5 (c : Dev nD) : W10 m ρ c (Proc.devRef .tc main_v5) = W5 m ρ c (Proc.devRef .tc main_v5) :=
  calc W10 m ρ c (Proc.devRef .tc main_v5)
    _ = W9 m ρ c (Proc.devRef .tc main_v5) := W10_of_ne m ρ c main_v5 (by decide)
    _ = W8 m ρ c (Proc.devRef .tc main_v5) := by host_keep hostOps2
    _ = W7 m ρ c (Proc.devRef .tc main_v5) := W8_of_ne m ρ c main_v5 (by decide)
    _ = W6 m ρ c (Proc.devRef .tc main_v5) := by host_keep hostOps1
    _ = W5 m ρ c (Proc.devRef .tc main_v5) := W6_of_ne m ρ c main_v5 (by decide)

theorem W10_v6 (c : Dev nD) : W10 m ρ c (Proc.devRef .tc main_v6) = W5 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := by host_keep hostOps2
    _ = W7 m ρ c (Proc.devRef .tc main_v6) := W8_of_ne m ρ c main_v6 (by decide)
    _ = W6 m ρ c (Proc.devRef .tc main_v6) := by host_keep hostOps1
    _ = W5 m ρ c (Proc.devRef .tc main_v6) := W6_of_ne m ρ c main_v6 (by decide)

theorem W10_v34 (c : Dev nD) : W10 m ρ c (Proc.devRef .tc main_v34) = W5 m ρ c (Proc.devRef .tc main_v34) :=
  calc W10 m ρ c (Proc.devRef .tc main_v34)
    _ = W9 m ρ c (Proc.devRef .tc main_v34) := W10_of_ne m ρ c main_v34 (by decide)
    _ = W8 m ρ c (Proc.devRef .tc main_v34) := by host_keep hostOps2
    _ = W7 m ρ c (Proc.devRef .tc main_v34) := W8_of_ne m ρ c main_v34 (by decide)
    _ = W6 m ρ c (Proc.devRef .tc main_v34) := by host_keep hostOps1
    _ = W5 m ρ c (Proc.devRef .tc main_v34) := W6_of_ne m ρ c main_v34 (by decide)

/-! ## The aggregation between two launches -/

/-- Rows of `y` gathered by the source nodes (a negative node number wrapped once, as the host spells it), scaled
    by the edge weights, and scattered with accumulation into zeros at the target rows. -/
def aggK (rows cols : IVec S1700000 32) (nrm : FVec Ideal S1700000 .f32) (y : FVec Ideal S100000x128 .bf16) :
    FVec Ideal S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 rows)
    (mulf (extf .f32 (Host.gather gather_S100000x128_S1700000x1_S1700000x128_1_0_n_n_0_1_1128 y
        (broadcastInDim S1700000x1 ![0] bcast_S1700000_S1700000x1_0
          (select (cmpi .slt cols (broadcastInDim S1700000 ![] bcast_S_S1700000 (constantI S_ 32 0#32)))
            (addi cols (broadcastInDim S1700000 ![] bcast_S_S1700000 (constantI S_ 32 100000#32))) cols))) bitsLt_bf16_f32)
      (broadcastInDim S1700000x128 ![0, 1] bcast_S1700000x1_S1700000x128_0_1
        (broadcastInDim S1700000x1 ![0] bcast_S1700000_S1700000x1_0 nrm)))

set_option maxHeartbeats 4000000 in
/-- Before the second launch: the aggregated first product, and the first bias as one row. -/
theorem W7_v49 (c : Dev nD) : W7 m ρ c (Proc.devRef .tc main_v49)
    = aggK (W6 m ρ c (Proc.devRef .tc main_v5)) (W6 m ρ c (Proc.devRef .tc main_v6)) (W6 m ρ c (Proc.devRef .tc main_v34))
        (W6 m ρ c (Proc.devRef .tc main_v35)) := by
  show StableHlo.after hostOps1 (W6 m ρ c) (Proc.devRef .tc main_v49) = _
  after_results_simp
  try rfl

theorem W7_v50 (c : Dev nD) : W7 m ρ c (Proc.devRef .tc main_v50)
    = shapeCast S1x128 (W6 m ρ c (Proc.devRef .tc main_arg5)) shapeCasts_S128_S1x128 := by
  show StableHlo.after hostOps1 (W6 m ρ c) (Proc.devRef .tc main_v50) = _
  after_results
  rfl

set_option maxHeartbeats 4000000 in
/-- Before the third launch: the aggregated second product, the second bias as one row, the heads' weights side by
    side. -/
theorem W9_v65 (c : Dev nD) : W9 m ρ c (Proc.devRef .tc main_v65)
    = aggK (W8 m ρ c (Proc.devRef .tc main_v5)) (W8 m ρ c (Proc.devRef .tc main_v6)) (W8 m ρ c (Proc.devRef .tc main_v34))
        (W8 m ρ c (Proc.devRef .tc main_v51)) := by
  show StableHlo.after hostOps2 (W8 m ρ c) (Proc.devRef .tc main_v65) = _
  after_results_simp
  try rfl

theorem W9_v67 (c : Dev nD) : W9 m ρ c (Proc.devRef .tc main_v67)
    = shapeCast S1x128 (W8 m ρ c (Proc.devRef .tc main_arg7)) shapeCasts_S128_S1x128 := by
  show StableHlo.after hostOps2 (W8 m ρ c) (Proc.devRef .tc main_v67) = _
  after_results
  rfl

theorem W9_v66 (c : Dev nD) : W9 m ρ c (Proc.devRef .tc main_v66)
    = concatenate S128x128 1 [⟨S128x64, W8 m ρ c (Proc.devRef .tc main_arg8)⟩, ⟨S128x64, W8 m ρ c (Proc.devRef .tc main_arg10)⟩]
        concatenates_S128x64_S128x64_S128x128_d1 := by
  show StableHlo.after hostOps2 (W8 m ρ c) (Proc.devRef .tc main_v66) = _
  after_results

set_option maxHeartbeats 4000000 in
/-- Before the last launch: the two blocks of 64 columns of the aggregated head, the heads' biases as rows. -/
theorem W11_v83 (c : Dev nD) : W11 m ρ c (Proc.devRef .tc main_v83)
    = extractStridedSlice S100000x64 ![0, 0]
        (aggK (W10 m ρ c (Proc.devRef .tc main_v5)) (W10 m ρ c (Proc.devRef .tc main_v6)) (W10 m ρ c (Proc.devRef .tc main_v34))
          (W10 m ρ c (Proc.devRef .tc main_v68))) slices_S100000x128_S100000x64_0_0 := by
  show StableHlo.after hostOps3 (W10 m ρ c) (Proc.devRef .tc main_v83) = _
  after_results_simp
  try rfl

set_option maxHeartbeats 4000000 in
theorem W11_v84 (c : Dev nD) : W11 m ρ c (Proc.devRef .tc main_v84)
    = extractStridedSlice S100000x64 ![0, 64]
        (aggK (W10 m ρ c (Proc.devRef .tc main_v5)) (W10 m ρ c (Proc.devRef .tc main_v6)) (W10 m ρ c (Proc.devRef .tc main_v34))
          (W10 m ρ c (Proc.devRef .tc main_v68))) slices_S100000x128_S100000x64_0_64 := by
  show StableHlo.after hostOps3 (W10 m ρ c) (Proc.devRef .tc main_v84) = _
  after_results_simp
  try rfl

theorem W11_v85 (c : Dev nD) : W11 m ρ c (Proc.devRef .tc main_v85)
    = shapeCast S1x64 (W10 m ρ c (Proc.devRef .tc main_arg9)) shapeCasts_S64_S1x64 := by
  show StableHlo.after hostOps3 (W10 m ρ c) (Proc.devRef .tc main_v85) = _
  after_results
  rfl

theorem W11_v86 (c : Dev nD) : W11 m ρ c (Proc.devRef .tc main_v86)
    = shapeCast S1x64 (W10 m ρ c (Proc.devRef .tc main_arg11)) shapeCasts_S64_S1x64 := by
  show StableHlo.after hostOps3 (W10 m ρ c) (Proc.devRef .tc main_v86) = _
  after_results
  rfl

end Cert.KernelIdeal.Values

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.Region0.lean ====
/-
  The first launch: a matrix product computed in ten blocks of 10000 rows.

  At each grid point the body multiplies its block of rows of the left operand by the whole right operand (both
  rounded to bf16 on the way in and the product on the way out, which changes nothing on the extended reals) and
  writes the block of rows back. Rows of a product depend on the same rows of the left operand only, and the ten
  blocks tile the 100000 rows, so the output array ends holding the product of the two arrays as the launch finds
  them.
-/
import proofs.«119687_j21904333209748_2_alg».proof.Proof.Gen.KernelIdeal.Frame
import proofs.«119687_j21904333209748_2_alg».proof.Proof.LibPlainDot
import Idealize.ShloMosaic.Lib.Pipeline.Value
import Idealize.ShloMosaic.Lib.ValueIdx

set_option maxRecDepth 16384

noncomputable section

namespace Cert.KernelIdeal.Values

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibPlainDot

variable (V : (c : Dev nD) → (b : Ref sig .tc) → Buf (Elt Ideal) ((c : Thread nD τ).loc b))

theorem hz : (![0, 0] : Fin 2 → Nat) = fun _ => 0 := funext fun a => by fin_cases a <;> rfl

/-- The body's payload is the product of its two loaded blocks. -/
theorem pay0 (x0 : Vec Ideal S10000x128 .f32) (x1 : Vec Ideal S128x128 .f32) :
    k0_pay1 (F := Ideal) x0 x1 = rowsTimes (M := 10000) (K := 128) (N := 128) x0 x1 :=
  matmul_zero_plain (M := 10000) (K := 128) (N := 128) (φ₁ := .bf16) (φ₂ := .bf16) none x0 x1

/-- The block indices over the grid: the left operand's block of rows moves with the output's, and every other
    block index is zero. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- A block of rows times the whole right operand is that block of rows of the product. -/
theorem block0 (A0 : S100000x128.Idx → EReal) (A1 : S128x128.Idx → EReal)
    (x0 : Vec Ideal S10000x128 .f32) (x1 : Vec Ideal S128x128 .f32) (o : ℕ)
    (h0 : ∀ (y : Fin 10000) (k : Fin 128) (h : o + y.val < 100000), x0 (ix2 y k) = A0 (ix2 (⟨o + y.val, h⟩ : Fin 100000) k))
    (h1 : ∀ (k : Fin 128) (q : Fin 128), x1 (ix2 k q) = A1 (ix2 k q))
    (y : S10000x128.Idx) (i : S100000x128.Idx) (hi0 : (i 0).val = o + (y 0).val) (hi1 : (i 1).val = (y 1).val) :
    k0_pay1 (F := Ideal) x0 x1 y = rowsTimes (M := 100000) (K := 128) (N := 128) A0 A1 i := by
  have e1 : (x1 : S128x128.Idx → EReal) = A1 := funext fun j => by
    rw [eq_ix2 j]; exact h1 _ _
  rw [pay0, e1]
  exact rowsTimes_rows o A0 x0 A1 h0 y i hi0 hi1

set_option maxHeartbeats 2000000 in
/-- What point `t` writes back is block `t` of the product of the two arrays as the launch finds them. -/
theorem flushed0 (c : Dev nD) (t : Fin cfg0.N) :
    (dat0 V c).flushed 2 t = ((cfg0.win 2).blk t).view.read (Elt Ideal)
      (rowsTimes (M := 100000) (K := 128) (N := 128) (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts0 t
  funext j
  refine block0 (V c (Pipeline.arrRef spec0 0)) (V c (Pipeline.arrRef spec0 1)) (iblk0 V c 0 t) (iblk0 V c 1 t)
    (win0_2.index t (0 : Fin 2) * 10000) (fun y k h => ?_) (fun k q => ?_) j (((cfg0.win 2).blk t).view.emb j) ?_ ?_
  · show V c (Pipeline.arrRef spec0 0) (((cfg0.win 0).blk t).view.emb (ix2 y k)) = _
    refine congrArg _ (funext fun a => Fin.ext ?_)
    match a with
    | ⟨0, _⟩ => show win0_0.index t (0 : Fin 2) * 10000 + 1 * y.val = win0_2.index t (0 : Fin 2) * 10000 + y.val; omega
    | ⟨1, _⟩ => show win0_0.index t (1 : Fin 2) * 128 + 1 * k.val = k.val; omega
  · show V c (Pipeline.arrRef spec0 1) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show win0_2.index t (0 : Fin 2) * 10000 + 1 * (j 0).val = win0_2.index t (0 : Fin 2) * 10000 + (j 0).val; omega
  · show win0_2.index t (1 : Fin 2) * 128 + 1 * (j 1).val = (j 1).val; omega

/-- An index of the output array is in point `t`'s block iff each coordinate is in the block's range. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v35).slice (win0_2.rect t)).set ↔ _
  rw [View.set_slice_whole, Rect.mem_set_unit]
  exact Iff.rfl

/-- The ten blocks of rows cover the output array: row `r` is in block `r / 10000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e0, e1, e2, e3, e4, e5⟩ := idx_facts0 t
  have e5' : win0_2.index t (0 : Fin 2) = (i 0).val / 10000 := e5
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE OUTPUT ARRAY after the launch: the product of the two arrays as the launch finds them. -/
theorem final0 (c : Dev nD) : (dat0 V c).arrAt 2 cfg0.N
    = rowsTimes (M := 100000) (K := 128) (N := 128) (V c (Pipeline.arrRef spec0 0)) (V c (Pipeline.arrRef spec0 1)) :=
  (dat0 V c).arrAt_eq_of_cover 2 _ (fun t _ => flushed0 V c t) cover0

end Cert.KernelIdeal.Values

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.LibBodyBias.lean ====
/-
  The kernel bodies' "add the bias row, floor at zero", on the extended reals.

  Inside a kernel body a block of `R` rows `a` (an `[R, N]` array) meets the one-row bias `b` (an `[1, N]` array) as
  `max (a + broadcast b) (splat z)`: the bias is broadcast over the rows, and the floor `z` is a scalar splat. Entry
  `(p, q)` is therefore `max (a (p, q) + b (0, q)) z`: the body's expression is `rowBiasFloor z a b`, the same function
  the host's spelling of the rectified bias denotes.
-/
import proofs.«119687_j21904333209748_2_alg».proof.Proof.LibRowBias
import Idealize.ShloMosaic.Lib.Pipeline.Value

noncomputable section

namespace Cert.LibBodyBias

open Idealize.ShloMosaic Idealize.ShloMosaic.ValueIdx Cert.LibRowBias

/-- A one-row array broadcast over `R` rows reads, at `(p, q)`, the row at `(0, q)`. -/
theorem broadcastRow_apply {α : Type} {R N : ℕ} (b : (⟨2, ![1, N]⟩ : Shape).Idx → α)
    (h : (⟨2, ![1, N]⟩ : Shape).Broadcasts ⟨2, ![R, N]⟩) (p : Fin R) (q : Fin N) :
    broadcastTo ⟨2, ![R, N]⟩ b h (ix2 p q) = b (ix2 (0 : Fin 1) q) := by
  have hq : q.val = if N = 1 then 0 else q.val := by
    split
    · have := q.isLt; omega
    · rfl
  refine broadcastTo_apply b h (ix2 p q) (ix2 (0 : Fin 1) q) (fun a => ?_)
  match a with
  | ⟨0, _⟩ => show 0 = if (1 : ℕ) = 1 then 0 else p.val; rw [if_pos rfl]
  | ⟨1, _⟩ => show q.val = if N = 1 then 0 else q.val; exact hq

/-- The body's rectified bias of a block of rows is `rowBiasFloor` at the splat word's value. -/
theorem max_addf_broadcastRow {R N : ℕ} (w : BitVec 32) (a : FVec Ideal ⟨2, ![R, N]⟩ .f32) (b : FVec Ideal ⟨2, ![1, N]⟩ .f32)
    (ha : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩) :
    maximumf (addf (shapeCast ⟨2, ![R, N]⟩ a ha) (broadcastTo ⟨2, ![R, N]⟩ (shapeCast ⟨2, ![1, N]⟩ b hb) hbc))
        (broadcast ⟨2, ![R, N]⟩ (Scalar.ofBits (F := Ideal) .f32 w))
      = rowBiasFloor (M := R) (N := N) (Ideal.ofBits .f32 w) a b := by
  rw [shapeCast_self, shapeCast_self]
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBiasFloor_apply]
  show max (a (ix2 p q) + broadcastTo ⟨2, ![R, N]⟩ b hbc (ix2 p q)) (Ideal.ofBits .f32 w) = _
  rw [broadcastRow_apply]

end Cert.LibBodyBias

end
-- ==== Proof.Region1.lean ====
/-
  Launch 1: "add the bias row, floor at zero, multiply by the weights", computed in twenty blocks of 5000 rows.

  At each grid point the body adds the one-row bias to its block of rows, takes the maximum with zero, and multiplies
  by the whole weight matrix (roundings to bf16 change nothing on the extended reals). Both steps act row by row, and
  the twenty blocks tile the 100000 rows, so the output array ends holding
  `(max (A + bias) 0) · W` of the three arrays as the launch finds them.
-/
import proofs.«119687_j21904333209748_2_alg».proof.Proof.Gen.KernelIdeal.Frame
import proofs.«119687_j21904333209748_2_alg».proof.Proof.LibPlainDot
import proofs.«119687_j21904333209748_2_alg».proof.Proof.LibRowBias
import proofs.«119687_j21904333209748_2_alg».proof.Proof.LibBodyBias
import Idealize.ShloMosaic.Lib.Pipeline.Value
import Idealize.ShloMosaic.Lib.ValueIdx

set_option maxRecDepth 16384

noncomputable section

namespace Cert.KernelIdeal.Values

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibPlainDot Cert.LibRowBias

variable (V : (c : Dev nD) → (b : Ref sig .tc) → Buf (Elt Ideal) ((c : Thread nD τ).loc b))

theorem hz1 : (![0, 0] : Fin 2 → Nat) = fun _ => 0 := funext fun a => by fin_cases a <;> rfl

/-- The body's payload: the rectified biased block of rows times the weights. -/
theorem pay1 (b : Vec Ideal S1x128 .f32) (a : Vec Ideal S5000x128 .f32) (w : Vec Ideal S128x128 .f32) :
    k1_pay1 (F := Ideal) b a w = rowsTimes (M := 5000) (K := 128) (N := 128)
      (rowBiasFloor (M := 5000) (N := 128) (Ideal.ofBits .f32 0x00000000#32) a b) w := by
  unfold k1_pay1
  simp only [shapeCast_self]
  refine (matmul_zero_plain (M := 5000) (K := 128) (N := 128) (φ₁ := .bf16) (φ₂ := .bf16) none _ w).trans ?_
  refine congrArg (fun l => rowsTimes (M := 5000) (K := 128) (N := 128) l w) ?_
  funext i
  obtain ⟨p, q, rfl⟩ : ∃ (p : Fin 5000) (q : Fin 128), i = ix2 p q :=
    ⟨⟨(i 0).val, idx2_lt0 i⟩, ⟨(i 1).val, idx2_lt1 i⟩, by funext d; match d with | ⟨0, _⟩ => rfl | ⟨1, _⟩ => rfl⟩
  rw [rowBiasFloor_apply]
  show max (a (ix2 p q) + broadcastTo S5000x128 b broadcasts_S1x128_S5000x128 (ix2 p q)) (Ideal.ofBits .f32 0x00000000#32) = _
  rw [Cert.LibBodyBias.broadcastRow_apply]

/-- The block indices over the grid: the first operand's block of rows moves with the output's, and every other
    block index is zero. -/
theorem idx_facts1 : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

/-- The body on a block of rows is that block of rows of the whole-array function. -/
theorem block1 (A : S100000x128.Idx → EReal) (B : S1x128.Idx → EReal) (W : S128x128.Idx → EReal)
    (xa : Vec Ideal S5000x128 .f32) (xb : Vec Ideal S1x128 .f32) (xw : Vec Ideal S128x128 .f32) (o : ℕ)
    (ha : ∀ (p : Fin 5000) (q : Fin 128) (h : o + p.val < 100000), xa (ix2 p q) = A (ix2 (⟨o + p.val, h⟩ : Fin 100000) q))
    (hb : ∀ (u : Fin 1) (q : Fin 128), xb (ix2 u q) = B (ix2 u q))
    (hw : ∀ (k : Fin 128) (q : Fin 128), xw (ix2 k q) = W (ix2 k q))
    (y : S5000x128.Idx) (i : S100000x128.Idx) (hi0 : (i 0).val = o + (y 0).val) (hi1 : (i 1).val = (y 1).val) :
    k1_pay1 (F := Ideal) xb xa xw y = rowsTimes (M := 100000) (K := 128) (N := 128)
      (rowBiasFloor (M := 100000) (N := 128) (Ideal.ofBits .f32 0x00000000#32) A B) W i := by
  have eb : (xb : S1x128.Idx → EReal) = B := funext fun j => by rw [eq_ix2 j]; exact hb _ _
  have ew : (xw : S128x128.Idx → EReal) = W := funext fun j => by rw [eq_ix2 j]; exact hw _ _
  rw [pay1, eb, ew]
  exact rowsTimes_rows o (rowBiasFloor (M := 100000) (N := 128) (Ideal.ofBits .f32 0x00000000#32) A B)
    (rowBiasFloor (M := 5000) (N := 128) (Ideal.ofBits .f32 0x00000000#32) xa B) W
    (fun p k h => rowBiasFloor_rows (Ideal.ofBits .f32 0x00000000#32) o A xa B ha (ix2 p k) (ix2 (⟨o + p.val, h⟩ : Fin 100000) k) rfl rfl)
    y i hi0 hi1

set_option maxHeartbeats 2000000 in
/-- What point `t` writes back is block `t` of the whole-array function of the arrays as the launch finds them. -/
theorem flushed1 (c : Dev nD) (t : Fin cfg1.N) :
    (dat1 V c).flushed 3 t = ((cfg1.win 3).blk t).view.read (Elt Ideal)
      (rowsTimes (M := 100000) (K := 128) (N := 128)
        (rowBiasFloor (M := 100000) (N := 128) (Ideal.ofBits .f32 0x00000000#32) (V c (Pipeline.arrRef spec1 0)) (V c (Pipeline.arrRef spec1 1)))
        (V c (Pipeline.arrRef spec1 2))) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S128x128) hz1, View.ld_unit_zero (S := S1x128) hz1]
  obtain ⟨e0, e1, e2, e3, e4, e5, e6, e7⟩ := idx_facts1 t
  funext j
  refine block1 (V c (Pipeline.arrRef spec1 0)) (V c (Pipeline.arrRef spec1 1)) (V c (Pipeline.arrRef spec1 2))
    (iblk1 V c 0 t) (iblk1 V c 1 t) (iblk1 V c 2 t)
    (win1_3.index t (0 : Fin 2) * 5000) (fun p q h => ?_) (fun u q => ?_) (fun k q => ?_) j (((cfg1.win 3).blk t).view.emb j) ?_ ?_
  · show V c (Pipeline.arrRef spec1 0) (((cfg1.win 0).blk t).view.emb (ix2 p q)) = _
    refine congrArg _ (funext fun a => Fin.ext ?_)
    match a with
    | ⟨0, _⟩ => show win1_0.index t (0 : Fin 2) * 5000 + 1 * p.val = win1_3.index t (0 : Fin 2) * 5000 + p.val; omega
    | ⟨1, _⟩ => show win1_0.index t (1 : Fin 2) * 128 + 1 * q.val = q.val; omega
  · show V c (Pipeline.arrRef spec1 1) (((cfg1.win 1).blk t).view.emb (ix2 u q)) = _
    refine congrArg _ (funext fun a => Fin.ext ?_)
    match a with
    | ⟨0, _⟩ => show win1_1.index t (0 : Fin 2) * 1 + 1 * u.val = u.val; omega
    | ⟨1, _⟩ => show win1_1.index t (1 : Fin 2) * 128 + 1 * q.val = q.val; omega
  · show V c (Pipeline.arrRef spec1 2) (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · show win1_3.index t (0 : Fin 2) * 5000 + 1 * (j 0).val = win1_3.index t (0 : Fin 2) * 5000 + (j 0).val; omega
  · show win1_3.index t (1 : Fin 2) * 128 + 1 * (j 1).val = (j 1).val; omega

/-- An index of the output array is in point `t`'s block iff each coordinate is in the block's range. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v51).slice (win1_3.rect t)).set ↔ _
  rw [View.set_slice_whole, Rect.mem_set_unit]
  exact Iff.rfl

/-- The twenty blocks of rows cover the output array: row `r` is in block `r / 5000`. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4, e5, e6, e7⟩ := idx_facts1 t
  have e7' : win1_3.index t (0 : Fin 2) = (i 0).val / 5000 := e7
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE OUTPUT ARRAY after the launch. -/
theorem final1 (c : Dev nD) : (dat1 V c).arrAt 3 cfg1.N
    = rowsTimes (M := 100000) (K := 128) (N := 128)
        (rowBiasFloor (M := 100000) (N := 128) (Ideal.ofBits .f32 0x00000000#32) (V c (Pipeline.arrRef spec1 0)) (V c (Pipeline.arrRef spec1 1)))
        (V c (Pipeline.arrRef spec1 2)) :=
  (dat1 V c).arrAt_eq_of_cover 3 _ (fun t _ => flushed1 V c t) cover1

end Cert.KernelIdeal.Values

end
-- ==== Proof.Region2.lean ====
/-
  Launch 2: "add the bias row, floor at zero, multiply by the weights", computed in twenty blocks of 5000 rows.

  At each grid point the body adds the one-row bias to its block of rows, takes the maximum with zero, and multiplies
  by the whole weight matrix (roundings to bf16 change nothing on the extended reals). Both steps act row by row, and
  the twenty blocks tile the 100000 rows, so the output array ends holding
  `(max (A + bias) 0) · W` of the three arrays as the launch finds them.
-/
import proofs.«119687_j21904333209748_2_alg».proof.Proof.Gen.KernelIdeal.Frame
import proofs.«119687_j21904333209748_2_alg».proof.Proof.LibPlainDot
import proofs.«119687_j21904333209748_2_alg».proof.Proof.LibRowBias
import proofs.«119687_j21904333209748_2_alg».proof.Proof.LibBodyBias
import Idealize.ShloMosaic.Lib.Pipeline.Value
import Idealize.ShloMosaic.Lib.ValueIdx

set_option maxRecDepth 16384

noncomputable section

namespace Cert.KernelIdeal.Values

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibPlainDot Cert.LibRowBias

variable (V : (c : Dev nD) → (b : Ref sig .tc) → Buf (Elt Ideal) ((c : Thread nD τ).loc b))

theorem hz2 : (![0, 0] : Fin 2 → Nat) = fun _ => 0 := funext fun a => by fin_cases a <;> rfl

/-- The body's payload: the rectified biased block of rows times the weights. -/
theorem pay2 (b : Vec Ideal S1x128 .f32) (a : Vec Ideal S5000x128 .f32) (w : Vec Ideal S128x128 .f32) :
    k2_pay1 (F := Ideal) b a w = rowsTimes (M := 5000) (K := 128) (N := 128)
      (rowBiasFloor (M := 5000) (N := 128) (Ideal.ofBits .f32 0x00000000#32) a b) w := by
  unfold k2_pay1
  simp only [shapeCast_self]
  refine (matmul_zero_plain (M := 5000) (K := 128) (N := 128) (φ₁ := .bf16) (φ₂ := .bf16) none _ w).trans ?_
  refine congrArg (fun l => rowsTimes (M := 5000) (K := 128) (N := 128) l w) ?_
  funext i
  obtain ⟨p, q, rfl⟩ : ∃ (p : Fin 5000) (q : Fin 128), i = ix2 p q :=
    ⟨⟨(i 0).val, idx2_lt0 i⟩, ⟨(i 1).val, idx2_lt1 i⟩, by funext d; match d with | ⟨0, _⟩ => rfl | ⟨1, _⟩ => rfl⟩
  rw [rowBiasFloor_apply]
  show max (a (ix2 p q) + broadcastTo S5000x128 b broadcasts_S1x128_S5000x128 (ix2 p q)) (Ideal.ofBits .f32 0x00000000#32) = _
  rw [Cert.LibBodyBias.broadcastRow_apply]

/-- The block indices over the grid: the first operand's block of rows moves with the output's, and every other
    block index is zero. -/
theorem idx_facts2 : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) = t.val :=
  (by decide +kernel : ∀ t : Fin grid2.N, _)

/-- The body on a block of rows is that block of rows of the whole-array function. -/
theorem block2 (A : S100000x128.Idx → EReal) (B : S1x128.Idx → EReal) (W : S128x128.Idx → EReal)
    (xa : Vec Ideal S5000x128 .f32) (xb : Vec Ideal S1x128 .f32) (xw : Vec Ideal S128x128 .f32) (o : ℕ)
    (ha : ∀ (p : Fin 5000) (q : Fin 128) (h : o + p.val < 100000), xa (ix2 p q) = A (ix2 (⟨o + p.val, h⟩ : Fin 100000) q))
    (hb : ∀ (u : Fin 1) (q : Fin 128), xb (ix2 u q) = B (ix2 u q))
    (hw : ∀ (k : Fin 128) (q : Fin 128), xw (ix2 k q) = W (ix2 k q))
    (y : S5000x128.Idx) (i : S100000x128.Idx) (hi0 : (i 0).val = o + (y 0).val) (hi1 : (i 1).val = (y 1).val) :
    k2_pay1 (F := Ideal) xb xa xw y = rowsTimes (M := 100000) (K := 128) (N := 128)
      (rowBiasFloor (M := 100000) (N := 128) (Ideal.ofBits .f32 0x00000000#32) A B) W i := by
  have eb : (xb : S1x128.Idx → EReal) = B := funext fun j => by rw [eq_ix2 j]; exact hb _ _
  have ew : (xw : S128x128.Idx → EReal) = W := funext fun j => by rw [eq_ix2 j]; exact hw _ _
  rw [pay2, eb, ew]
  exact rowsTimes_rows o (rowBiasFloor (M := 100000) (N := 128) (Ideal.ofBits .f32 0x00000000#32) A B)
    (rowBiasFloor (M := 5000) (N := 128) (Ideal.ofBits .f32 0x00000000#32) xa B) W
    (fun p k h => rowBiasFloor_rows (Ideal.ofBits .f32 0x00000000#32) o A xa B ha (ix2 p k) (ix2 (⟨o + p.val, h⟩ : Fin 100000) k) rfl rfl)
    y i hi0 hi1

set_option maxHeartbeats 2000000 in
/-- What point `t` writes back is block `t` of the whole-array function of the arrays as the launch finds them. -/
theorem flushed2 (c : Dev nD) (t : Fin cfg2.N) :
    (dat2 V c).flushed 3 t = ((cfg2.win 3).blk t).view.read (Elt Ideal)
      (rowsTimes (M := 100000) (K := 128) (N := 128)
        (rowBiasFloor (M := 100000) (N := 128) (Ideal.ofBits .f32 0x00000000#32) (V c (Pipeline.arrRef spec2 0)) (V c (Pipeline.arrRef spec2 1)))
        (V c (Pipeline.arrRef spec2 2))) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128x128) hz2, View.ld_unit_zero (S := S1x128) hz2]
  obtain ⟨e0, e1, e2, e3, e4, e5, e6, e7⟩ := idx_facts2 t
  funext j
  refine block2 (V c (Pipeline.arrRef spec2 0)) (V c (Pipeline.arrRef spec2 1)) (V c (Pipeline.arrRef spec2 2))
    (iblk2 V c 0 t) (iblk2 V c 1 t) (iblk2 V c 2 t)
    (win2_3.index t (0 : Fin 2) * 5000) (fun p q h => ?_) (fun u q => ?_) (fun k q => ?_) j (((cfg2.win 3).blk t).view.emb j) ?_ ?_
  · show V c (Pipeline.arrRef spec2 0) (((cfg2.win 0).blk t).view.emb (ix2 p q)) = _
    refine congrArg _ (funext fun a => Fin.ext ?_)
    match a with
    | ⟨0, _⟩ => show win2_0.index t (0 : Fin 2) * 5000 + 1 * p.val = win2_3.index t (0 : Fin 2) * 5000 + p.val; omega
    | ⟨1, _⟩ => show win2_0.index t (1 : Fin 2) * 128 + 1 * q.val = q.val; omega
  · show V c (Pipeline.arrRef spec2 1) (((cfg2.win 1).blk t).view.emb (ix2 u q)) = _
    refine congrArg _ (funext fun a => Fin.ext ?_)
    match a with
    | ⟨0, _⟩ => show win2_1.index t (0 : Fin 2) * 1 + 1 * u.val = u.val; omega
    | ⟨1, _⟩ => show win2_1.index t (1 : Fin 2) * 128 + 1 * q.val = q.val; omega
  · show V c (Pipeline.arrRef spec2 2) (((cfg2.win 2).blk t).view.emb (ix2 k q)) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  · show win2_3.index t (0 : Fin 2) * 5000 + 1 * (j 0).val = win2_3.index t (0 : Fin 2) * 5000 + (j 0).val; omega
  · show win2_3.index t (1 : Fin 2) * 128 + 1 * (j 1).val = (j 1).val; omega

/-- An index of the output array is in point `t`'s block iff each coordinate is in the block's range. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v68).slice (win2_3.rect t)).set ↔ _
  rw [View.set_slice_whole, Rect.mem_set_unit]
  exact Iff.rfl

/-- The twenty blocks of rows cover the output array: row `r` is in block `r / 5000`. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨e0, e1, e2, e3, e4, e5, e6, e7⟩ := idx_facts2 t
  have e7' : win2_3.index t (0 : Fin 2) = (i 0).val / 5000 := e7
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE OUTPUT ARRAY after the launch. -/
theorem final2 (c : Dev nD) : (dat2 V c).arrAt 3 cfg2.N
    = rowsTimes (M := 100000) (K := 128) (N := 128)
        (rowBiasFloor (M := 100000) (N := 128) (Ideal.ofBits .f32 0x00000000#32) (V c (Pipeline.arrRef spec2 0)) (V c (Pipeline.arrRef spec2 1)))
        (V c (Pipeline.arrRef spec2 2)) :=
  (dat2 V c).arrAt_eq_of_cover 3 _ (fun t _ => flushed2 V c t) cover2

end Cert.KernelIdeal.Values

end
-- ==== Proof.LibScatterRows.lean ====
/- Accumulating scatters whose start index is one row number per update.

   An accumulating scatter adds every update element into the operand element its result index names, and drops
   an update whose result index falls outside the operand. Two shapes of it are read here at an index.

   Rows: the operand is `[R, C]`, the scatter indices are `[N, 1]` and the updates are `[N, C]`; update row `n` is
   added, column by column, into operand row `idx n` (the start index read as a signed integer, not clamped).
   Update element `(n, c)` therefore lands on operand element `(r, c')` exactly when `idx n = r` and `c = c'`, and
   the scatter's value at `(r, c)` is the operand's element plus the sum, over all `n` with `idx n = r`, of
   update `(n, c)`. An index that is negative or at least `R` is the number of no row, so such an update appears
   in no sum: no range hypothesis is needed.

   Flat: the operand is `[R]`, the updates are `[N]`; update `n` is added into operand element `idx n`, and the
   value at `r` is the operand's element plus the sum of the updates `n` with `idx n = r`. -/
import Idealize.ShloMosaic.PureOps.Ideal
import Idealize.ShloMosaic.Lib.ValueIdx

noncomputable section

namespace Cert.Voxel.Ref

open Idealize.ShloMosaic Idealize.ShloMosaic.ValueIdx

/-- The scatter-indices index `[n, 0]` that holds update `n`'s row number. -/
abbrev rowIdx {N : Nat} (n : Fin N) : (⟨2, ![N, 1]⟩ : Shape).Idx := ix2 n (⟨0, Nat.one_pos⟩ : Fin 1)

/-! ## Rows: operand `[R, C]`, indices `[N, 1]`, updates `[N, C]` -/

section Rows
variable {R N C : Nat}

/-- The dimension numbers of a scatter of rows: the updates' axis 1 is the window axis and goes to the operand's
    axis 1; the operand's axis 0 is inserted and receives the start index, whose one component is read along the
    scatter indices' axis 1. -/
abbrev rowsDims (R N C : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

/-- On the operand's axis 0 the window of update `(n, c)` starts at the row number `idx[n, 0]`, read signed. -/
theorem rows_start0 {w : Nat} (wf : ScatterDims.WF ⟨2, ![R, C]⟩ ⟨2, ![N, 1]⟩ ⟨2, ![N, C]⟩ [1] [0] [0] 1)
    (idx : IVec ⟨2, ![N, 1]⟩ w) (n : Fin N) (c : Fin C) :
    (rowsDims R N C wf).start (ix2 n c) idx 0 = (idx (rowIdx n)).toInt := by
  unfold ScatterDims.start
  rw [dif_pos (show (0 : Fin 2) ∈ (rowsDims R N C wf).scatterDimsToOperandDims from List.mem_singleton.mpr rfl)]
  have hsi : (rowsDims R N C wf).siIdx (ix2 n c) ⟨List.idxOf (0 : Fin 2) (rowsDims R N C wf).scatterDimsToOperandDims,
      List.idxOf_lt_length_iff.2 (List.mem_singleton.mpr rfl)⟩ = rowIdx n := by
    funext b; refine Fin.ext ?_
    match b with
    | ⟨0, _⟩ => rfl
    | ⟨1, _⟩ => rfl
  rw [hsi]

/-- On the operand's axis 1, which no start-index component names, the window starts at `0`. -/
theorem rows_start1 {w : Nat} (wf : ScatterDims.WF ⟨2, ![R, C]⟩ ⟨2, ![N, 1]⟩ ⟨2, ![N, C]⟩ [1] [0] [0] 1)
    (idx : IVec ⟨2, ![N, 1]⟩ w) (j : (⟨2, ![N, C]⟩ : Shape).Idx) :
    (rowsDims R N C wf).start j idx 1 = 0 := by
  have h : (1 : Fin 2) ∉ (rowsDims R N C wf).scatterDimsToOperandDims := by
    show (1 : Fin 2) ∉ [(0 : Fin 2)]; decide
  unfold ScatterDims.start
  rw [dif_neg h]

/-- The operand's axis 0 is inserted: the window coordinate on it is `0`. -/
theorem rows_window0 (wf : ScatterDims.WF ⟨2, ![R, C]⟩ ⟨2, ![N, 1]⟩ ⟨2, ![N, C]⟩ [1] [0] [0] 1)
    (j : (⟨2, ![N, C]⟩ : Shape).Idx) :
    (rowsDims R N C wf).window j 0 = 0 := by
  have h : (0 : Fin 2) ∉ (rowsDims R N C wf).sKept := by
    show (0 : Fin 2) ∉ (List.finRange 2).filter (· ∉ [(0 : Fin 2)]); decide
  unfold ScatterDims.window
  rw [dif_neg h]

/-- On the operand's axis 1 the window coordinate of update `(n, c)` is its column `c`. -/
theorem rows_window1 (wf : ScatterDims.WF ⟨2, ![R, C]⟩ ⟨2, ![N, 1]⟩ ⟨2, ![N, C]⟩ [1] [0] [0] 1)
    (n : Fin N) (c : Fin C) :
    (rowsDims R N C wf).window (ix2 n c) 1 = c.val := by
  have h : (1 : Fin 2) ∈ (rowsDims R N C wf).sKept := by
    show (1 : Fin 2) ∈ (List.finRange 2).filter (· ∉ [(0 : Fin 2)]); decide
  unfold ScatterDims.window
  rw [dif_pos h]
  rfl

/-- Update element `(n, c)` lands on operand element `(r, c')` exactly when its row number is `r` and its column
    is `c'`. A row number outside `0 … R - 1` equals no `r`, and such an update is dropped. -/
theorem rows_resultIdx_eq_some {w : Nat} (wf : ScatterDims.WF ⟨2, ![R, C]⟩ ⟨2, ![N, 1]⟩ ⟨2, ![N, C]⟩ [1] [0] [0] 1)
    (idx : IVec ⟨2, ![N, 1]⟩ w) (n : Fin N) (c : Fin C) (r : Fin R) (c' : Fin C) :
    (rowsDims R N C wf).resultIdx? (ix2 n c) idx = some (ix2 r c')
      ↔ (idx (rowIdx n)).toInt = (r.val : Int) ∧ c = c' := by
  unfold ScatterDims.resultIdx?
  constructor
  · intro h
    split at h
    · rename_i hall
      have e := Option.some.inj h
      have e0 : ((rowsDims R N C wf).start (ix2 n c) idx 0 + (rowsDims R N C wf).window (ix2 n c) 0).toNat = r.val :=
        congrArg (fun f : (⟨2, ![R, C]⟩ : Shape).Idx => (f 0).val) e
      have e1 : ((rowsDims R N C wf).start (ix2 n c) idx 1 + (rowsDims R N C wf).window (ix2 n c) 1).toNat = c'.val :=
        congrArg (fun f : (⟨2, ![R, C]⟩ : Shape).Idx => (f 1).val) e
      have h0 := (hall 0).1
      rw [rows_start0, rows_window0] at e0 h0
      rw [rows_start1, rows_window1] at e1
      exact ⟨by omega, Fin.ext (by omega)⟩
    · cases h
  · rintro ⟨h0, rfl⟩
    have hall : ∀ a, 0 ≤ (rowsDims R N C wf).start (ix2 n c) idx a + (rowsDims R N C wf).window (ix2 n c) a ∧
        (rowsDims R N C wf).start (ix2 n c) idx a + (rowsDims R N C wf).window (ix2 n c) a
          < (⟨2, ![R, C]⟩ : Shape).size a := by
      intro a
      match a with
      | ⟨0, _⟩ =>
        show 0 ≤ (rowsDims R N C wf).start (ix2 n c) idx 0 + (rowsDims R N C wf).window (ix2 n c) 0 ∧
          (rowsDims R N C wf).start (ix2 n c) idx 0 + (rowsDims R N C wf).window (ix2 n c) 0 < (R : Int)
        rw [rows_start0, rows_window0]; have := r.isLt; omega
      | ⟨1, _⟩ =>
        show 0 ≤ (rowsDims R N C wf).start (ix2 n c) idx 1 + (rowsDims R N C wf).window (ix2 n c) 1 ∧
          (rowsDims R N C wf).start (ix2 n c) idx 1 + (rowsDims R N C wf).window (ix2 n c) 1 < (C : Int)
        rw [rows_start1, rows_window1]; have := c.isLt; omega
    rw [dif_pos hall]
    congr 1
    funext a
    refine Fin.ext ?_
    match a with
    | ⟨0, _⟩ =>
      show ((rowsDims R N C wf).start (ix2 n c) idx 0 + (rowsDims R N C wf).window (ix2 n c) 0).toNat = r.val
      rw [rows_start0, rows_window0]; omega
    | ⟨1, _⟩ =>
      show ((rowsDims R N C wf).start (ix2 n c) idx 1 + (rowsDims R N C wf).window (ix2 n c) 1).toNat = c.val
      rw [rows_start1, rows_window1]; omega

/-- THE SCATTER OF ROWS READ AT `(r, c)`: the operand's element plus the sum of column `c` of the update rows whose
    row number is `r`. The sum over the update elements that land on `(r, c)` is split into the update's row and
    column; in each row at most the column `c` contributes. -/
theorem rows_scatterAdd_apply {w : Nat} (wf : ScatterDims.WF ⟨2, ![R, C]⟩ ⟨2, ![N, 1]⟩ ⟨2, ![N, C]⟩ [1] [0] [0] 1)
    (x : (⟨2, ![R, C]⟩ : Shape).Idx → EReal) (idx : IVec ⟨2, ![N, 1]⟩ w) (upd : (⟨2, ![N, C]⟩ : Shape).Idx → EReal)
    (r : Fin R) (c : Fin C) :
    Ideal.hostScatterAdd (rowsDims R N C wf) x idx upd (ix2 r c)
      = x (ix2 r c) + ∑ n : Fin N, if (idx (rowIdx n)).toInt = (r.val : Int) then upd (ix2 n c) else 0 := by
  unfold Ideal.hostScatterAdd
  congr 1
  rw [Finset.sum_filter, sum_idx2]
  refine Finset.sum_congr rfl fun n _ => ?_
  simp only [rows_resultIdx_eq_some]
  by_cases h : (idx (rowIdx n)).toInt = (r.val : Int)
  · simp only [h, true_and, Finset.sum_ite_eq', Finset.mem_univ, if_true]
  · simp only [h, false_and, if_false, Finset.sum_const_zero]

end Rows

/-! ## Flat: operand `[R]`, indices `[N, 1]`, updates `[N]` -/

section Flat
variable {R N : Nat}

/-- The dimension numbers of a scatter of single elements: the updates have no window axis; the operand's one
    axis is inserted and receives the start index. -/
abbrev flatDims (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- Update `n`'s window starts at the number `idx[n, 0]`, read signed. -/
theorem flat_start {w : Nat} (wf : ScatterDims.WF ⟨1, ![R]⟩ ⟨2, ![N, 1]⟩ ⟨1, ![N]⟩ [] [0] [0] 1)
    (idx : IVec ⟨2, ![N, 1]⟩ w) (n : Fin N) :
    (flatDims R N wf).start (ix1 n) idx 0 = (idx (rowIdx n)).toInt := by
  unfold ScatterDims.start
  rw [dif_pos (show (0 : Fin 1) ∈ (flatDims R N wf).scatterDimsToOperandDims from List.mem_singleton.mpr rfl)]
  have hsi : (flatDims R N wf).siIdx (ix1 n) ⟨List.idxOf (0 : Fin 1) (flatDims R N wf).scatterDimsToOperandDims,
      List.idxOf_lt_length_iff.2 (List.mem_singleton.mpr rfl)⟩ = rowIdx n := by
    funext b; refine Fin.ext ?_
    match b with
    | ⟨0, _⟩ => rfl
    | ⟨1, _⟩ => rfl
  rw [hsi]

/-- The operand's one axis is inserted: the window coordinate on it is `0`. -/
theorem flat_window (wf : ScatterDims.WF ⟨1, ![R]⟩ ⟨2, ![N, 1]⟩ ⟨1, ![N]⟩ [] [0] [0] 1)
    (j : (⟨1, ![N]⟩ : Shape).Idx) :
    (flatDims R N wf).window j 0 = 0 := by
  have h : (0 : Fin 1) ∉ (flatDims R N wf).sKept := by
    show (0 : Fin 1) ∉ (List.finRange 1).filter (· ∉ [(0 : Fin 1)]); decide
  unfold ScatterDims.window
  rw [dif_neg h]

/-- Update `n` lands on operand element `r` exactly when its number is `r`. -/
theorem flat_resultIdx_eq_some {w : Nat} (wf : ScatterDims.WF ⟨1, ![R]⟩ ⟨2, ![N, 1]⟩ ⟨1, ![N]⟩ [] [0] [0] 1)
    (idx : IVec ⟨2, ![N, 1]⟩ w) (n : Fin N) (r : Fin R) :
    (flatDims R N wf).resultIdx? (ix1 n) idx = some (ix1 r) ↔ (idx (rowIdx n)).toInt = (r.val : Int) := by
  unfold ScatterDims.resultIdx?
  constructor
  · intro h
    split at h
    · rename_i hall
      have e := Option.some.inj h
      have e0 : ((flatDims R N wf).start (ix1 n) idx 0 + (flatDims R N wf).window (ix1 n) 0).toNat = r.val :=
        congrArg (fun f : (⟨1, ![R]⟩ : Shape).Idx => (f 0).val) e
      have h0 := (hall 0).1
      rw [flat_start, flat_window] at e0 h0
      omega
    · cases h
  · intro h0
    have hall : ∀ a, 0 ≤ (flatDims R N wf).start (ix1 n) idx a + (flatDims R N wf).window (ix1 n) a ∧
        (flatDims R N wf).start (ix1 n) idx a + (flatDims R N wf).window (ix1 n) a
          < (⟨1, ![R]⟩ : Shape).size a := by
      intro a
      match a with
      | ⟨0, _⟩ =>
        show 0 ≤ (flatDims R N wf).start (ix1 n) idx 0 + (flatDims R N wf).window (ix1 n) 0 ∧
          (flatDims R N wf).start (ix1 n) idx 0 + (flatDims R N wf).window (ix1 n) 0 < (R : Int)
        rw [flat_start, flat_window]; have := r.isLt; omega
    rw [dif_pos hall]
    congr 1
    funext a
    refine Fin.ext ?_
    match a with
    | ⟨0, _⟩ =>
      show ((flatDims R N wf).start (ix1 n) idx 0 + (flatDims R N wf).window (ix1 n) 0).toNat = r.val
      rw [flat_start, flat_window]; omega

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE FLAT SCATTER READ AT `r`: the operand's element plus the sum of the updates whose number is `r`. -/
theorem flat_scatterAdd_apply {w : Nat} (wf : ScatterDims.WF ⟨1, ![R]⟩ ⟨2, ![N, 1]⟩ ⟨1, ![N]⟩ [] [0] [0] 1)
    (x : (⟨1, ![R]⟩ : Shape).Idx → EReal) (idx : IVec ⟨2, ![N, 1]⟩ w) (upd : (⟨1, ![N]⟩ : Shape).Idx → EReal)
    (r : Fin R) :
    Ideal.hostScatterAdd (flatDims R N wf) x idx upd (ix1 r)
      = x (ix1 r) + ∑ n : Fin N, if (idx (rowIdx n)).toInt = (r.val : Int) then upd (ix1 n) else 0 := by
  unfold Ideal.hostScatterAdd
  congr 1
  rw [Finset.sum_filter, sum_idx1]
  refine Finset.sum_congr rfl fun n _ => ?_
  simp only [flat_resultIdx_eq_some]

end Flat

end Cert.Voxel.Ref

end
-- ==== Proof.LibGatherRows.lean ====
/- Gathers whose start index is one row number per result row.

   A gather reads, for each result index, one element of the operand: on every operand axis the coordinate is the
   clamped start of the slice plus the offset inside the slice. Two shapes of it are read here at an index; in both
   the start indices are a column `[E, 1]`, whose entry `idx[n, 0]` is read as a signed integer and clamped into
   `[0, N - 1]` (the slice has one row, so the last admissible start is `N - 1`); a negative number clamps to `0`.

   Flat: the operand is `[N]`, the slice is one element, the result is `[E]`; result element `n` is the operand at
   the clamped `idx[n, 0]`.

   Rows: the operand is `[N, C]`, the slice is one whole row `[1, C]`, the result is `[E, C]`; result element
   `(n, c)` is the operand at (the clamped `idx[n, 0]`, `c`): axis 0 is collapsed and takes the start, axis 1 is
   the one offset axis, starts at `0` and takes the result's column. -/
import Idealize.ShloMosaic.PureOps.Ideal
import Idealize.ShloMosaic.Lib.ValueIdx

noncomputable section

namespace Cert.GatherRows

open Idealize.ShloMosaic Idealize.ShloMosaic.ValueIdx

/-- The start-indices index `[n, 0]` that holds result row `n`'s row number. -/
abbrev colIdx {E : Nat} (n : Fin E) : (⟨2, ![E, 1]⟩ : Shape).Idx := ix2 n (⟨0, Nat.one_pos⟩ : Fin 1)

/-- A signed word clamped into `[0, N - 1]`, as a coordinate below `N`. -/
abbrev clampRow {w : Nat} (N : Nat) (hN : 0 < N) (v : BitVec w) : Fin N := ⟨min v.toInt.toNat (N - 1), by omega⟩

/-! ## Flat: operand `[N]`, start indices `[E, 1]`, result `[E]` -/

section Flat
variable {α : Type}

/-- The dimension numbers of a gather of single elements: no offset axis; the operand's one axis is collapsed and
    receives the start index, whose one component is read along the start indices' axis 1. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `n`: the operand at the start index `idx[n, 0]`, read signed and clamped into
    `[0, N - 1]`. -/
theorem flat_gather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (n : Fin E) :
    Host.gather (flatDims N E wf) x idx (ix1 n) = x (ix1 (clampRow N hN (idx (colIdx n)))) := by
  unfold Host.gather
  congr 1
  funext a
  obtain rfl : a = 0 := Subsingleton.elim _ _
  refine Fin.ext ?_
  show (flatDims N E wf).start (ix1 n) idx 0 + (flatDims N E wf).batchCoord (ix1 n) 0
    + (flatDims N E wf).offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 n) ⟨List.idxOf (0 : Fin 1) (flatDims N E wf).startIndexMap,
      List.idxOf_lt_length_iff.2 (List.mem_singleton.mpr rfl)⟩ = colIdx n := by
    funext b; refine Fin.ext ?_
    match b with
    | ⟨0, _⟩ => rfl
    | ⟨1, _⟩ => rfl
  rw [hsi]
  rfl

end Flat

/-! ## Rows: operand `[N, C]`, start indices `[E, 1]`, result `[E, C]` -/

section Rows
variable {α : Type}

/-- The dimension numbers of a gather of whole rows: the result's axis 1 is the offset axis and reads the
    operand's axis 1; the operand's axis 0 is collapsed and receives the start index. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On the operand's axis 0 the slice of result element `(n, c)` starts at the clamped row number. -/
theorem rows_start0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (n : Fin E) (c : Fin C) :
    (rowsDims N E C wf).start (ix2 n c) idx 0 = (clampRow N hN (idx (colIdx n))).val := by
  unfold GatherDims.start
  rw [dif_pos (show (0 : Fin 2) ∈ (rowsDims N E C wf).startIndexMap from List.mem_singleton.mpr rfl)]
  have hsi : (rowsDims N E C wf).siIdx (ix2 n c) ⟨List.idxOf (0 : Fin 2) (rowsDims N E C wf).startIndexMap,
      List.idxOf_lt_length_iff.2 (List.mem_singleton.mpr rfl)⟩ = colIdx n := by
    funext b; refine Fin.ext ?_
    match b with
    | ⟨0, _⟩ => rfl
    | ⟨1, _⟩ => rfl
  rw [hsi]
  rfl

/-- On the operand's axis 1, which no start-index component names, the slice starts at `0`. -/
theorem rows_start1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    (rowsDims N E C wf).start j idx 1 = 0 := by
  have h : (1 : Fin 2) ∉ (rowsDims N E C wf).startIndexMap := by
    show (1 : Fin 2) ∉ [(0 : Fin 2)]; decide
  unfold GatherDims.start
  rw [dif_neg h]

/-- The operand's axis 0 is collapsed: the offset on it is `0`. -/
theorem rows_off0 {N E C : Nat}
    (wf : GatherDims.WF ⟨2, ![N, C]⟩ ⟨2, ![E, 1]⟩ ⟨2, ![E, C]⟩ [1] [0] [] [0] [] 1 ![1, C])
    (j : (⟨2, ![E, C]⟩ : Shape).Idx) :
    (rowsDims N E C wf).offCoord j 0 = 0 :=
  GatherDims.offCoord_eq_zero _ _ _ (fun h => ((GatherDims.mem_sKept _ _).mp h).1 (List.mem_singleton.mpr rfl))

/-- On the operand's axis 1 the offset of result element `(n, c)` is its column `c`. -/
theorem rows_off1 {N E C : Nat}
    (wf : GatherDims.WF ⟨2, ![N, C]⟩ ⟨2, ![E, 1]⟩ ⟨2, ![E, C]⟩ [1] [0] [] [0] [] 1 ![1, C])
    (n : Fin E) (c : Fin C) :
    (rowsDims N E C wf).offCoord (ix2 n c) 1 = c.val := by
  have h : (1 : Fin 2) ∈ (rowsDims N E C wf).sKept := by
    show (1 : Fin 2) ∈ (List.finRange 2).filter (· ∉ [(0 : Fin 2)] ++ [])
    decide
  unfold GatherDims.offCoord
  rw [dif_pos h]
  rfl

/-- THE GATHER OF ROWS READ AT `(n, c)`: the operand at (the start index `idx[n, 0]` read signed and clamped into
    `[0, N - 1]`, `c`). -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (n : Fin E) (c : Fin C) :
    Host.gather (rowsDims N E C wf) x idx (ix2 n c) = x (ix2 (clampRow N hN (idx (colIdx n))) c) := by
  unfold Host.gather
  congr 1
  funext a
  refine Fin.ext ?_
  match a with
  | ⟨0, _⟩ =>
    show (rowsDims N E C wf).start (ix2 n c) idx 0 + (rowsDims N E C wf).batchCoord (ix2 n c) 0
      + (rowsDims N E C wf).offCoord (ix2 n c) 0 = _
    rw [GatherDims.batchCoord_eq_zero _ _ _ List.not_mem_nil, rows_off0, rows_start0 hN]
    rfl
  | ⟨1, _⟩ =>
    show (rowsDims N E C wf).start (ix2 n c) idx 1 + (rowsDims N E C wf).batchCoord (ix2 n c) 1
      + (rowsDims N E C wf).offCoord (ix2 n c) 1 = _
    rw [GatherDims.batchCoord_eq_zero _ _ _ List.not_mem_nil, rows_off1, rows_start1]
    show 0 + 0 + c.val = c.val
    omega

end Rows

end Cert.GatherRows

end
-- ==== Proof.LibGcnAgg.lean ====
/-
  The weighted neighbourhood sum of a graph layer, on the extended reals.

  Every edge `n` of a list of `E` edges names a target row `rowOf n` (an integer; one outside `0 … R - 1` is the
  number of no row), a source row `colOf n` and a weight `w n`. `agg z rowOf colOf w y` is, at row `r` and column
  `c`, the start value `z` plus the sum over the edges whose target is `r` of `y (colOf n, c) * w n`.

  The host computes it as an accumulating scatter of rows into a splat of `z`, of the gathered rows of `y` scaled by
  the weight column broadcast over the columns: `agg_ops`. An entry of `agg` depends on its own column of `y` only,
  so a block of columns of `agg … y` is `agg` of that block of columns of `y` (`agg_cols`); and a matrix product
  against two blocks of columns joined side by side has the two products as its blocks of columns
  (`rowsTimes_concat_left`, `rowsTimes_concat_right`).
-/
import Idealize.ShloMosaic.Lib.Pipeline.Value
import proofs.«119687_j21904333209748_2_alg».proof.Proof.LibScatterRows
import proofs.«119687_j21904333209748_2_alg».proof.Proof.LibGatherRows
import proofs.«119687_j21904333209748_2_alg».proof.Proof.LibPlainDot

noncomputable section

namespace Cert.LibGcnAgg

open Idealize.ShloMosaic Idealize.ShloMosaic.ValueIdx Cert.LibPlainDot

/-- The start value plus, over the edges whose target row is the entry's row, the source row's entry in the same
    column times the edge's weight. -/
def agg {R E C : ℕ} (z : EReal) (rowOf : Fin E → ℤ) (colOf : Fin E → Fin R) (w : Fin E → EReal)
    (y : (⟨2, ![R, C]⟩ : Shape).Idx → EReal) : (⟨2, ![R, C]⟩ : Shape).Idx → EReal :=
  fun j => z + ∑ n : Fin E,
    if rowOf n = ((j 0).val : ℤ) then y (ix2 (colOf n) (⟨(j 1).val, idx2_lt1 j⟩ : Fin C)) * w n else 0

theorem agg_apply {R E C : ℕ} (z : EReal) (rowOf : Fin E → ℤ) (colOf : Fin E → Fin R) (w : Fin E → EReal)
    (y : (⟨2, ![R, C]⟩ : Shape).Idx → EReal) (r : Fin R) (c : Fin C) :
    agg z rowOf colOf w y (ix2 r c)
      = z + ∑ n : Fin E, if rowOf n = (r.val : ℤ) then y (ix2 (colOf n) c) * w n else 0 := rfl

/-- A length-`E` vector broadcast to a column and then over `C` columns reads, at `(n, c)`, the vector at `n`. -/
theorem bcastCol_apply {α : Type} {E C : ℕ}
    (h1 : (⟨1, ![E]⟩ : Shape).BroadcastsInDim ⟨2, ![E, 1]⟩ ![0])
    (h2 : (⟨2, ![E, 1]⟩ : Shape).BroadcastsInDim ⟨2, ![E, C]⟩ ![0, 1])
    (x : (⟨1, ![E]⟩ : Shape).Idx → α) (n : Fin E) (c : Fin C) :
    broadcastInDim ⟨2, ![E, C]⟩ ![0, 1] h2 (broadcastInDim ⟨2, ![E, 1]⟩ ![0] h1 x) (ix2 n c) = x (ix1 n) := by
  have hn : n.val = if E = 1 then 0 else n.val := by
    split
    · have := n.isLt; omega
    · rfl
  refine (broadcastInDim_apply ![0, 1] h2 (broadcastInDim ⟨2, ![E, 1]⟩ ![0] h1 x) (ix2 n c) (ix2 n (0 : Fin 1)) (fun a => ?_)).trans ?_
  · match a with
    | ⟨0, _⟩ => show n.val = if E = 1 then 0 else n.val; exact hn
    | ⟨1, _⟩ => show 0 = if (1 : ℕ) = 1 then 0 else c.val; rw [if_pos rfl]
  · refine broadcastInDim_apply ![0] h1 x (ix2 n (0 : Fin 1)) (ix1 n) (fun a => ?_)
    match a with
    | ⟨0, _⟩ => show n.val = if E = 1 then 0 else n.val; exact hn

/-- THE HOST'S SPELLING: rows of `y` gathered by the source column, scaled by the weights broadcast over the columns,
    scattered with accumulation by the target column into the splat of the word `b0`, is `agg` from that word's value:
    the target is the target column read signed, the source the source column read signed and clamped into
    `0 … R - 1`. -/
theorem agg_ops {R E C : ℕ} (hR : 0 < R) (b0 : BitVec 32)
    (wfS : ScatterDims.WF ⟨2, ![R, C]⟩ ⟨2, ![E, 1]⟩ ⟨2, ![E, C]⟩ [1] [0] [0] 1)
    (wfG : GatherDims.WF ⟨2, ![R, C]⟩ ⟨2, ![E, 1]⟩ ⟨2, ![E, C]⟩ [1] [0] [] [0] [] 1 ![1, C])
    (hz : (⟨0, ![]⟩ : Shape).BroadcastsInDim ⟨2, ![R, C]⟩ ![])
    (h1 : (⟨1, ![E]⟩ : Shape).BroadcastsInDim ⟨2, ![E, 1]⟩ ![0])
    (h2 : (⟨2, ![E, 1]⟩ : Shape).BroadcastsInDim ⟨2, ![E, C]⟩ ![0, 1])
    (rowsC colsC : IVec ⟨2, ![E, 1]⟩ 32) (nrm : (⟨1, ![E]⟩ : Shape).Idx → EReal)
    (y : (⟨2, ![R, C]⟩ : Shape).Idx → EReal) :
    Ideal.hostScatterAdd (Cert.Voxel.Ref.rowsDims R E C wfS)
        (broadcastInDim ⟨2, ![R, C]⟩ ![] hz (constant (F := Ideal) ⟨0, ![]⟩ .f32 b0)) rowsC
        (fun i => Host.gather (Cert.GatherRows.rowsDims R E C wfG) y colsC i
          * broadcastInDim ⟨2, ![E, C]⟩ ![0, 1] h2 (broadcastInDim ⟨2, ![E, 1]⟩ ![0] h1 nrm) i)
      = agg (Ideal.ofBits .f32 b0) (fun n => (rowsC (Cert.Voxel.Ref.rowIdx n)).toInt)
          (fun n => Cert.GatherRows.clampRow R hR (colsC (Cert.GatherRows.colIdx n))) (fun n => nrm (ix1 n)) y := by
  funext j
  obtain ⟨r, c, rfl⟩ : ∃ (r : Fin R) (c : Fin C), j = ix2 r c :=
    ⟨⟨(j 0).val, idx2_lt0 j⟩, ⟨(j 1).val, idx2_lt1 j⟩, by funext d; match d with | ⟨0, _⟩ => rfl | ⟨1, _⟩ => rfl⟩
  rw [Cert.Voxel.Ref.rows_scatterAdd_apply wfS, agg_apply]
  congr 1
  refine Finset.sum_congr rfl fun n _ => ?_
  refine if_congr Iff.rfl ?_ rfl
  show Host.gather (Cert.GatherRows.rowsDims R E C wfG) y colsC (ix2 n c)
      * broadcastInDim ⟨2, ![E, C]⟩ ![0, 1] h2 (broadcastInDim ⟨2, ![E, 1]⟩ ![0] h1 nrm) (ix2 n c) = _
  rw [Cert.GatherRows.rows_gather_apply hR wfG, bcastCol_apply]

/-- Columns `o, …, o + C' - 1` of `agg … y` are `agg` of those columns of `y`. -/
theorem agg_cols {R E C C' : ℕ} (o : ℕ) (z : EReal) (rowOf : Fin E → ℤ) (colOf : Fin E → Fin R) (w : Fin E → EReal)
    (y : (⟨2, ![R, C]⟩ : Shape).Idx → EReal) (y' : (⟨2, ![R, C']⟩ : Shape).Idx → EReal)
    (hy : ∀ (i : Fin R) (q : Fin C') (h : o + q.val < C), y' (ix2 i q) = y (ix2 i (⟨o + q.val, h⟩ : Fin C)))
    (r : Fin R) (q : Fin C') (h : o + q.val < C) :
    agg z rowOf colOf w y' (ix2 r q) = agg z rowOf colOf w y (ix2 r (⟨o + q.val, h⟩ : Fin C)) := by
  rw [agg_apply, agg_apply]
  congr 1
  refine Finset.sum_congr rfl fun n _ => ?_
  rw [hy (colOf n) q h]

/-- Against two blocks of columns joined side by side, the left block's columns of the product are the product with
    the left block. -/
theorem rowsTimes_concat_left {M K N1 N2 N : ℕ} (x : (⟨2, ![M, K]⟩ : Shape).Idx → EReal)
    (a : (⟨2, ![K, N1]⟩ : Shape).Idx → EReal) (b : (⟨2, ![K, N2]⟩ : Shape).Idx → EReal)
    (h : Shape.Concatenates [(⟨2, ![K, N1]⟩ : Shape), ⟨2, ![K, N2]⟩] ⟨2, ![K, N]⟩ 1)
    (p : Fin M) (q : Fin N1) (q' : Fin N) (hq : q'.val = q.val) :
    rowsTimes x (concatenate ⟨2, ![K, N]⟩ 1 [⟨⟨2, ![K, N1]⟩, a⟩, ⟨⟨2, ![K, N2]⟩, b⟩] h) (ix2 p q')
      = rowsTimes x a (ix2 p q) := by
  rw [rowsTimes_apply, rowsTimes_apply]
  refine Finset.sum_congr rfl fun k _ => ?_
  congr 1
  refine concatenate_pair_apply_left (1 : Fin 2) a b h (ix2 k q') rfl (ix2 k q) (fun d => ?_)
  match d with
  | ⟨0, _⟩ => rfl
  | ⟨1, _⟩ => exact hq.symm

/-- … and the right block's columns are the product with the right block. -/
theorem rowsTimes_concat_right {M K N1 N2 N : ℕ} (x : (⟨2, ![M, K]⟩ : Shape).Idx → EReal)
    (a : (⟨2, ![K, N1]⟩ : Shape).Idx → EReal) (b : (⟨2, ![K, N2]⟩ : Shape).Idx → EReal)
    (h : Shape.Concatenates [(⟨2, ![K, N1]⟩ : Shape), ⟨2, ![K, N2]⟩] ⟨2, ![K, N]⟩ 1)
    (p : Fin M) (q : Fin N2) (q' : Fin N) (hq : q'.val = N1 + q.val) :
    rowsTimes x (concatenate ⟨2, ![K, N]⟩ 1 [⟨⟨2, ![K, N1]⟩, a⟩, ⟨⟨2, ![K, N2]⟩, b⟩] h) (ix2 p q')
      = rowsTimes x b (ix2 p q) := by
  rw [rowsTimes_apply, rowsTimes_apply]
  refine Finset.sum_congr rfl fun k _ => ?_
  congr 1
  refine concatenate_pair_apply_right (1 : Fin 2) a b h (ix2 k q') rfl rfl (ix2 k q) (fun d hd => ?_) ?_
  · match d with
    | ⟨0, _⟩ => rfl
    | ⟨1, _⟩ => exact absurd rfl hd
  · show q.val + N1 = q'.val
    omega

end Cert.LibGcnAgg

end
-- ==== Proof.Spec.lean ====
/-
  What both programs compute, as one function of the argument arrays on the extended reals.

  A graph of 100000 nodes has `E` weighted edges; edge `n` goes from the source node `colOf n` to the target row
  `rowOf n` with weight `w n`. A layer multiplies the node features by a weight matrix, sums, for every node, the
  weighted rows of its incoming edges' sources (`agg`), and adds a bias row. Two hidden layers are rectified
  (`hidden`); two heads (`head`) give a mean and a logarithm of a standard deviation per node and latent
  coordinate, from which the sampled point `mu + r · exp(ls)` (`sample`) and the divergence term
  `-ls + ½ (exp(ls)² + mu² - 1)` (`kl`) are taken entry by entry.
-/
import proofs.«119687_j21904333209748_2_alg».proof.Proof.LibPlainDot
import proofs.«119687_j21904333209748_2_alg».proof.Proof.LibRowBias
import proofs.«119687_j21904333209748_2_alg».proof.Proof.LibGcnAgg

noncomputable section

namespace Cert.GcnSpec

open Idealize.ShloMosaic Idealize.ShloMosaic.ValueIdx Cert.LibPlainDot Cert.LibRowBias Cert.LibGcnAgg

/-- The values of the three float words the programs spell: zero, one and one half. -/
abbrev Z : EReal := Ideal.ofBits .f32 0x00000000#32
abbrev ONE : EReal := Ideal.ofBits .f32 0x3F800000#32
abbrev HALF : EReal := Ideal.ofBits .f32 0x3F000000#32

section
variable {E : ℕ} (rowOf : Fin E → ℤ) (colOf : Fin E → Fin 100000) (w : Fin E → EReal)

/-- A rectified layer: `max (agg (x · W) + b) 0`. -/
def hidden (x : (⟨2, ![100000, 128]⟩ : Shape).Idx → EReal) (W : (⟨2, ![128, 128]⟩ : Shape).Idx → EReal)
    (b : (⟨2, ![1, 128]⟩ : Shape).Idx → EReal) : (⟨2, ![100000, 128]⟩ : Shape).Idx → EReal :=
  rowBiasFloor Z (agg Z rowOf colOf w (rowsTimes x W)) b

/-- A head: `agg (x · W) + b`, 64 columns wide. -/
def head (x : (⟨2, ![100000, 128]⟩ : Shape).Idx → EReal) (W : (⟨2, ![128, 64]⟩ : Shape).Idx → EReal)
    (b : (⟨2, ![1, 64]⟩ : Shape).Idx → EReal) : (⟨2, ![100000, 64]⟩ : Shape).Idx → EReal :=
  rowBias (agg Z rowOf colOf w (rowsTimes x W)) b

/-- The sampled point, entry by entry. -/
def sample {M N : ℕ} (mu ls r : (⟨2, ![M, N]⟩ : Shape).Idx → EReal) : (⟨2, ![M, N]⟩ : Shape).Idx → EReal :=
  fun i => mu i + r i * Ideal.exp (ls i)

/-- The divergence term, entry by entry. -/
def kl {M N : ℕ} (mu ls : (⟨2, ![M, N]⟩ : Shape).Idx → EReal) : (⟨2, ![M, N]⟩ : Shape).Idx → EReal :=
  fun i => -(ls i) + HALF * ((Ideal.exp (ls i) * Ideal.exp (ls i) + mu i * mu i) - ONE)

/-- The second hidden layer's output. -/
def feats (h : (⟨2, ![100000, 128]⟩ : Shape).Idx → EReal) (W0 : (⟨2, ![128, 128]⟩ : Shape).Idx → EReal)
    (b0 : (⟨2, ![1, 128]⟩ : Shape).Idx → EReal) (W1 : (⟨2, ![128, 128]⟩ : Shape).Idx → EReal)
    (b1 : (⟨2, ![1, 128]⟩ : Shape).Idx → EReal) : (⟨2, ![100000, 128]⟩ : Shape).Idx → EReal :=
  hidden rowOf colOf w (hidden rowOf colOf w h W0 b0) W1 b1

/-- The first result: the sampled point. -/
def out0 (h : (⟨2, ![100000, 128]⟩ : Shape).Idx → EReal) (W0 : (⟨2, ![128, 128]⟩ : Shape).Idx → EReal)
    (b0 : (⟨2, ![1, 128]⟩ : Shape).Idx → EReal) (W1 : (⟨2, ![128, 128]⟩ : Shape).Idx → EReal)
    (b1 : (⟨2, ![1, 128]⟩ : Shape).Idx → EReal) (Wmu : (⟨2, ![128, 64]⟩ : Shape).Idx → EReal)
    (bmu : (⟨2, ![1, 64]⟩ : Shape).Idx → EReal) (Wstd : (⟨2, ![128, 64]⟩ : Shape).Idx → EReal)
    (bstd : (⟨2, ![1, 64]⟩ : Shape).Idx → EReal) (r : (⟨2, ![100000, 64]⟩ : Shape).Idx → EReal) :
    (⟨2, ![100000, 64]⟩ : Shape).Idx → EReal :=
  sample (head rowOf colOf w (feats rowOf colOf w h W0 b0 W1 b1) Wmu bmu)
    (head rowOf colOf w (feats rowOf colOf w h W0 b0 W1 b1) Wstd bstd) r

/-- The second result: the divergence term. -/
def out1 (h : (⟨2, ![100000, 128]⟩ : Shape).Idx → EReal) (W0 : (⟨2, ![128, 128]⟩ : Shape).Idx → EReal)
    (b0 : (⟨2, ![1, 128]⟩ : Shape).Idx → EReal) (W1 : (⟨2, ![128, 128]⟩ : Shape).Idx → EReal)
    (b1 : (⟨2, ![1, 128]⟩ : Shape).Idx → EReal) (Wmu : (⟨2, ![128, 64]⟩ : Shape).Idx → EReal)
    (bmu : (⟨2, ![1, 64]⟩ : Shape).Idx → EReal) (Wstd : (⟨2, ![128, 64]⟩ : Shape).Idx → EReal)
    (bstd : (⟨2, ![1, 64]⟩ : Shape).Idx → EReal) : (⟨2, ![100000, 64]⟩ : Shape).Idx → EReal :=
  kl (head rowOf colOf w (feats rowOf colOf w h W0 b0 W1 b1) Wmu bmu)
    (head rowOf colOf w (feats rowOf colOf w h W0 b0 W1 b1) Wstd bstd)

end

/-- The edge data read off the two index columns and the weight vector: the target row is the target column's
    entry read signed, the source node the source column's entry read signed and clamped into `0 … 99999`. -/
def rowOfCol {E : ℕ} (rowsC : IVec ⟨2, ![E, 1]⟩ 32) : Fin E → ℤ := fun n => (rowsC (Cert.Voxel.Ref.rowIdx n)).toInt
def colOfCol {E : ℕ} (colsC : IVec ⟨2, ![E, 1]⟩ 32) : Fin E → Fin 100000 :=
  fun n => Cert.GatherRows.clampRow 100000 (by decide) (colsC (Cert.GatherRows.colIdx n))
def wOfVec {E : ℕ} (nrm : (⟨1, ![E]⟩ : Shape).Idx → EReal) : Fin E → EReal := fun n => nrm (ix1 n)

end Cert.GcnSpec

end
-- ==== Proof.Region3.lean ====
/-
  The last launch: the two heads' biases, the sampled point and the divergence term, in twenty blocks of 5000 rows.

  At each grid point the body adds the two one-row biases to its blocks of rows of the two raw heads, and from the
  results `mu`, `ls` and its block of the noise `r` writes `mu + r · exp ls` to one output and
  `(0 - ls) + ½ ((exp ls · exp ls + mu · mu) - 1)` to the other, entry by entry. On the extended reals `0 - x = -x`.
  Everything acts row by row and the twenty blocks tile the 100000 rows, so the two output arrays end holding those two
  functions of the five arrays as the launch finds them.
-/
import proofs.«119687_j21904333209748_2_alg».proof.Proof.Gen.KernelIdeal.Frame
import proofs.«119687_j21904333209748_2_alg».proof.Proof.Spec
import proofs.«119687_j21904333209748_2_alg».proof.Proof.LibRowBias
import proofs.«119687_j21904333209748_2_alg».proof.Proof.LibBodyBias
import Idealize.ShloMosaic.Lib.Pipeline.Value
import Idealize.ShloMosaic.Lib.ValueIdx

set_option maxRecDepth 16384

noncomputable section

namespace Cert.KernelIdeal.Values

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibPlainDot Cert.LibRowBias
open Cert.GcnSpec

variable (V : (c : Dev nD) → (b : Ref sig .tc) → Buf (Elt Ideal) ((c : Thread nD τ).loc b))

theorem hz3 : (![0, 0] : Fin 2 → Nat) = fun _ => 0 := funext fun a => by fin_cases a <;> rfl

/-- The first payload: the sampled point of the biased blocks. -/
theorem pay3_4 (bm bs : Vec Ideal S1x64 .f32) (am al ar : Vec Ideal S5000x64 .f32) :
    k3_pay4 (F := Ideal) bm bs am al ar
      = sample (M := 5000) (N := 64) (rowBias (M := 5000) (N := 64) am bm) (rowBias (M := 5000) (N := 64) al bs) ar := by
  funext i
  obtain ⟨p, q, rfl⟩ : ∃ (p : Fin 5000) (q : Fin 64), i = ix2 p q :=
    ⟨⟨(i 0).val, idx2_lt0 i⟩, ⟨(i 1).val, idx2_lt1 i⟩, by funext d; match d with | ⟨0, _⟩ => rfl | ⟨1, _⟩ => rfl⟩
  unfold k3_pay4 k3_pay3 k3_pay2 k3_pay1 sample
  simp only [shapeCast_self]
  rw [rowBias_apply, rowBias_apply]
  show (am (ix2 p q) + broadcastTo S5000x64 bm broadcasts_S1x64_S5000x64 (ix2 p q))
      + ar (ix2 p q) * Ideal.exp (al (ix2 p q) + broadcastTo S5000x64 bs broadcasts_S1x64_S5000x64 (ix2 p q)) = _
  rw [Cert.LibBodyBias.broadcastRow_apply, Cert.LibBodyBias.broadcastRow_apply]

/-- The second payload: the divergence term of the biased blocks (`0 - x` is `-x`). -/
theorem pay3_5 (bm bs : Vec Ideal S1x64 .f32) (am al : Vec Ideal S5000x64 .f32) :
    k3_pay5 (F := Ideal) bm bs am al
      = kl (M := 5000) (N := 64) (rowBias (M := 5000) (N := 64) am bm) (rowBias (M := 5000) (N := 64) al bs) := by
  funext i
  obtain ⟨p, q, rfl⟩ : ∃ (p : Fin 5000) (q : Fin 64), i = ix2 p q :=
    ⟨⟨(i 0).val, idx2_lt0 i⟩, ⟨(i 1).val, idx2_lt1 i⟩, by funext d; match d with | ⟨0, _⟩ => rfl | ⟨1, _⟩ => rfl⟩
  unfold k3_pay5 k3_pay3 k3_pay2 k3_pay1 kl
  simp only [shapeCast_self]
  rw [rowBias_apply, rowBias_apply]
  show (Ideal.ofBits .f32 0x00000000#32 - (al (ix2 p q) + broadcastTo S5000x64 bs broadcasts_S1x64_S5000x64 (ix2 p q)))
      + Ideal.ofBits .f32 0x3F000000#32 * ((Ideal.exp (al (ix2 p q) + broadcastTo S5000x64 bs broadcasts_S1x64_S5000x64 (ix2 p q))
          * Ideal.exp (al (ix2 p q) + broadcastTo S5000x64 bs broadcasts_S1x64_S5000x64 (ix2 p q))
          + (am (ix2 p q) + broadcastTo S5000x64 bm broadcasts_S1x64_S5000x64 (ix2 p q))
            * (am (ix2 p q) + broadcastTo S5000x64 bm broadcasts_S1x64_S5000x64 (ix2 p q)))
        - Ideal.ofBits .f32 0x3F800000#32) = _
  rw [Cert.LibBodyBias.broadcastRow_apply, Cert.LibBodyBias.broadcastRow_apply, Ideal.ofBits_zero_f32, zero_sub]

/-- The block indices over the grid: the three row-blocked operands move with the outputs, every other block index
    is zero. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

section
variable (A0 A1 A4 : S100000x64.Idx → EReal) (B2 B3 : S1x64.Idx → EReal)
    (x0 x1 x4 : Vec Ideal S5000x64 .f32) (x2 x3 : Vec Ideal S1x64 .f32) (o : ℕ)
    (h0 : ∀ (p : Fin 5000) (q : Fin 64) (h : o + p.val < 100000), x0 (ix2 p q) = A0 (ix2 (⟨o + p.val, h⟩ : Fin 100000) q))
    (h1 : ∀ (p : Fin 5000) (q : Fin 64) (h : o + p.val < 100000), x1 (ix2 p q) = A1 (ix2 (⟨o + p.val, h⟩ : Fin 100000) q))
    (h4 : ∀ (p : Fin 5000) (q : Fin 64) (h : o + p.val < 100000), x4 (ix2 p q) = A4 (ix2 (⟨o + p.val, h⟩ : Fin 100000) q))
    (h2 : ∀ (u : Fin 1) (q : Fin 64), x2 (ix2 u q) = B2 (ix2 u q))
    (h3 : ∀ (u : Fin 1) (q : Fin 64), x3 (ix2 u q) = B3 (ix2 u q))
    (y : S5000x64.Idx) (i : S100000x64.Idx) (hi0 : (i 0).val = o + (y 0).val) (hi1 : (i 1).val = (y 1).val)
include h0 h1 h2 h3 hi0 hi1

/-- The second body result on blocks of rows is that block of rows of the whole-array function. -/
theorem block3_5 :
    k3_pay5 (F := Ideal) x2 x3 x0 x1 y
      = kl (M := 100000) (N := 64) (rowBias (M := 100000) (N := 64) A0 B2) (rowBias (M := 100000) (N := 64) A1 B3) i := by
  have e2 : (x2 : S1x64.Idx → EReal) = B2 := funext fun j => by rw [eq_ix2 j]; exact h2 _ _
  have e3 : (x3 : S1x64.Idx → EReal) = B3 := funext fun j => by rw [eq_ix2 j]; exact h3 _ _
  rw [pay3_5, e2, e3]
  unfold kl
  rw [rowBias_rows o A0 x0 B2 h0 y i hi0 hi1, rowBias_rows o A1 x1 B3 h1 y i hi0 hi1]

include h4
/-- The first body result on blocks of rows is that block of rows of the whole-array function. -/
theorem block3_4 :
    k3_pay4 (F := Ideal) x2 x3 x0 x1 x4 y
      = sample (M := 100000) (N := 64) (rowBias (M := 100000) (N := 64) A0 B2) (rowBias (M := 100000) (N := 64) A1 B3) A4 i := by
  have e2 : (x2 : S1x64.Idx → EReal) = B2 := funext fun j => by rw [eq_ix2 j]; exact h2 _ _
  have e3 : (x3 : S1x64.Idx → EReal) = B3 := funext fun j => by rw [eq_ix2 j]; exact h3 _ _
  have hM : o + (y 0).val < 100000 := hi0 ▸ (i 0).isLt
  have ei : i = ix2 (⟨o + (y 0).val, hM⟩ : Fin 100000) (y 1) := by
    funext d; match d with | ⟨0, _⟩ => exact Fin.ext hi0 | ⟨1, _⟩ => exact Fin.ext hi1
  have e4 : x4 y = A4 i := by
    rw [ei]; exact (congrArg x4 (eq_ix2 y)).trans (h4 (y 0) (y 1) hM)
  rw [pay3_4, e2, e3]
  unfold sample
  rw [rowBias_rows o A0 x0 B2 h0 y i hi0 hi1, rowBias_rows o A1 x1 B3 h1 y i hi0 hi1, e4]

end

set_option maxHeartbeats 2000000 in
/-- What point `t` writes back to output 0 is block `t` of the whole-array function of the arrays as the launch finds them. -/
theorem flushed3_5 (c : Dev nD) (t : Fin cfg3.N) :
    (dat3 V c).flushed 5 t = ((cfg3.win 5).blk t).view.read (Elt Ideal)
      (sample (M := 100000) (N := 64) (rowBias (M := 100000) (N := 64) (V c (Pipeline.arrRef spec3 0)) (V c (Pipeline.arrRef spec3 2)))
        (rowBias (M := 100000) (N := 64) (V c (Pipeline.arrRef spec3 1)) (V c (Pipeline.arrRef spec3 3))) (V c (Pipeline.arrRef spec3 4))) := by
  show (cfg3.win 5).cut (grid3.coords t) ((dat3 V c).after 5 t) = _
  rw [after3_5]
  unfold out3_5
  rw [View.canon_unit_zero hz3]
  simp only [View.ld_unit_zero (S := S5000x64) hz3, View.ld_unit_zero (S := S1x64) hz3]
  obtain ⟨a0, a1, b0, b1, c0, c1, d0, d1, f0, f1, g0, g1, k0, k1⟩ := idx_facts3 t
  funext j
  refine block3_4 (V c (Pipeline.arrRef spec3 0)) (V c (Pipeline.arrRef spec3 1)) (V c (Pipeline.arrRef spec3 4)) (V c (Pipeline.arrRef spec3 2)) (V c (Pipeline.arrRef spec3 3))
    (iblk3 V c 0 t) (iblk3 V c 1 t) (iblk3 V c 4 t) (iblk3 V c 2 t) (iblk3 V c 3 t) (t.val * 5000)
    (fun p q h => ?_) (fun p q h => ?_) (fun p q h => ?_) (fun u q => ?_) (fun u q => ?_) j (((cfg3.win 5).blk t).view.emb j) ?_ ?_
  · show V c (Pipeline.arrRef spec3 0) (((cfg3.win 0).blk t).view.emb (ix2 p q)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 64 + 1 * q.val = q.val; omega
  · show V c (Pipeline.arrRef spec3 1) (((cfg3.win 1).blk t).view.emb (ix2 p q)) = _
    refine congrArg _ (funext fun a => Fin.ext ?_)
    match a with
    | ⟨0, _⟩ => show win3_1.index t (0 : Fin 2) * 5000 + 1 * p.val = t.val * 5000 + p.val; omega
    | ⟨1, _⟩ => show win3_1.index t (1 : Fin 2) * 64 + 1 * q.val = q.val; omega
  · show V c (Pipeline.arrRef spec3 4) (((cfg3.win 4).blk t).view.emb (ix2 p q)) = _
    refine congrArg _ (funext fun a => Fin.ext ?_)
    match a with
    | ⟨0, _⟩ => show win3_4.index t (0 : Fin 2) * 5000 + 1 * p.val = t.val * 5000 + p.val; omega
    | ⟨1, _⟩ => show win3_4.index t (1 : Fin 2) * 64 + 1 * q.val = q.val; omega
  · show V c (Pipeline.arrRef spec3 2) (((cfg3.win 2).blk t).view.emb (ix2 u q)) = _
    refine congrArg _ (funext fun a => Fin.ext ?_)
    match a with
    | ⟨0, _⟩ => show win3_2.index t (0 : Fin 2) * 1 + 1 * u.val = u.val; omega
    | ⟨1, _⟩ => show win3_2.index t (1 : Fin 2) * 64 + 1 * q.val = q.val; omega
  · show V c (Pipeline.arrRef spec3 3) (((cfg3.win 3).blk t).view.emb (ix2 u q)) = _
    refine congrArg _ (funext fun a => Fin.ext ?_)
    match a with
    | ⟨0, _⟩ => show win3_3.index t (0 : Fin 2) * 1 + 1 * u.val = u.val; omega
    | ⟨1, _⟩ => show win3_3.index t (1 : Fin 2) * 64 + 1 * q.val = q.val; omega
  · show win3_5.index t (0 : Fin 2) * 5000 + 1 * (j 0).val = t.val * 5000 + (j 0).val; omega
  · show win3_5.index t (1 : Fin 2) * 64 + 1 * (j 1).val = (j 1).val; omega

/-- An index of output 0's array is in point `t`'s block iff each coordinate is in the block's range. -/
theorem mem_blk3_5 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v87_0).slice (win3_5.rect t)).set ↔ _
  rw [View.set_slice_whole, Rect.mem_set_unit]
  exact Iff.rfl

/-- The twenty blocks of rows cover output 0's array. -/
theorem cover3_5' (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨a0, a1, b0, b1, c0, c1, d0, d1, f0, f1, g0, g1, k0, k1⟩ := idx_facts3 t
  have ht : t.val = (i 0).val / 5000 := rfl
  refine ⟨t, flush3_5 t, ?_⟩
  rw [mem_blk3_5]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- OUTPUT 0's ARRAY after the launch. -/
theorem final3_5 (c : Dev nD) : (dat3 V c).arrAt 5 cfg3.N
    = sample (M := 100000) (N := 64) (rowBias (M := 100000) (N := 64) (V c (Pipeline.arrRef spec3 0)) (V c (Pipeline.arrRef spec3 2)))
        (rowBias (M := 100000) (N := 64) (V c (Pipeline.arrRef spec3 1)) (V c (Pipeline.arrRef spec3 3))) (V c (Pipeline.arrRef spec3 4)) :=
  (dat3 V c).arrAt_eq_of_cover 5 _ (fun t _ => flushed3_5 V c t) cover3_5'

set_option maxHeartbeats 2000000 in
/-- What point `t` writes back to output 1 is block `t` of the whole-array function of the arrays as the launch finds them. -/
theorem flushed3_6 (c : Dev nD) (t : Fin cfg3.N) :
    (dat3 V c).flushed 6 t = ((cfg3.win 6).blk t).view.read (Elt Ideal)
      (kl (M := 100000) (N := 64) (rowBias (M := 100000) (N := 64) (V c (Pipeline.arrRef spec3 0)) (V c (Pipeline.arrRef spec3 2)))
        (rowBias (M := 100000) (N := 64) (V c (Pipeline.arrRef spec3 1)) (V c (Pipeline.arrRef spec3 3)))) := by
  show (cfg3.win 6).cut (grid3.coords t) ((dat3 V c).after 6 t) = _
  rw [after3_6]
  unfold out3_6
  rw [View.canon_unit_zero hz3]
  simp only [View.ld_unit_zero (S := S5000x64) hz3, View.ld_unit_zero (S := S1x64) hz3]
  obtain ⟨a0, a1, b0, b1, c0, c1, d0, d1, f0, f1, g0, g1, k0, k1⟩ := idx_facts3 t
  funext j
  refine block3_5 (V c (Pipeline.arrRef spec3 0)) (V c (Pipeline.arrRef spec3 1)) (V c (Pipeline.arrRef spec3 2)) (V c (Pipeline.arrRef spec3 3))
    (iblk3 V c 0 t) (iblk3 V c 1 t) (iblk3 V c 2 t) (iblk3 V c 3 t) (t.val * 5000)
    (fun p q h => ?_) (fun p q h => ?_) (fun u q => ?_) (fun u q => ?_) j (((cfg3.win 6).blk t).view.emb j) ?_ ?_
  · show V c (Pipeline.arrRef spec3 0) (((cfg3.win 0).blk t).view.emb (ix2 p q)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 64 + 1 * q.val = q.val; omega
  · show V c (Pipeline.arrRef spec3 1) (((cfg3.win 1).blk t).view.emb (ix2 p q)) = _
    refine congrArg _ (funext fun a => Fin.ext ?_)
    match a with
    | ⟨0, _⟩ => show win3_1.index t (0 : Fin 2) * 5000 + 1 * p.val = t.val * 5000 + p.val; omega
    | ⟨1, _⟩ => show win3_1.index t (1 : Fin 2) * 64 + 1 * q.val = q.val; omega
  · show V c (Pipeline.arrRef spec3 2) (((cfg3.win 2).blk t).view.emb (ix2 u q)) = _
    refine congrArg _ (funext fun a => Fin.ext ?_)
    match a with
    | ⟨0, _⟩ => show win3_2.index t (0 : Fin 2) * 1 + 1 * u.val = u.val; omega
    | ⟨1, _⟩ => show win3_2.index t (1 : Fin 2) * 64 + 1 * q.val = q.val; omega
  · show V c (Pipeline.arrRef spec3 3) (((cfg3.win 3).blk t).view.emb (ix2 u q)) = _
    refine congrArg _ (funext fun a => Fin.ext ?_)
    match a with
    | ⟨0, _⟩ => show win3_3.index t (0 : Fin 2) * 1 + 1 * u.val = u.val; omega
    | ⟨1, _⟩ => show win3_3.index t (1 : Fin 2) * 64 + 1 * q.val = q.val; omega
  · show win3_6.index t (0 : Fin 2) * 5000 + 1 * (j 0).val = t.val * 5000 + (j 0).val; omega
  · show win3_6.index t (1 : Fin 2) * 64 + 1 * (j 1).val = (j 1).val; omega

/-- An index of output 1's array is in point `t`'s block iff each coordinate is in the block's range. -/
theorem mem_blk3_6 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v87_1).slice (win3_6.rect t)).set ↔ _
  rw [View.set_slice_whole, Rect.mem_set_unit]
  exact Iff.rfl

/-- The twenty blocks of rows cover output 1's array. -/
theorem cover3_6' (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨a0, a1, b0, b1, c0, c1, d0, d1, f0, f1, g0, g1, k0, k1⟩ := idx_facts3 t
  have ht : t.val = (i 0).val / 5000 := rfl
  refine ⟨t, flush3_6 t, ?_⟩
  rw [mem_blk3_6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- OUTPUT 1's ARRAY after the launch. -/
theorem final3_6 (c : Dev nD) : (dat3 V c).arrAt 6 cfg3.N
    = kl (M := 100000) (N := 64) (rowBias (M := 100000) (N := 64) (V c (Pipeline.arrRef spec3 0)) (V c (Pipeline.arrRef spec3 2)))
        (rowBias (M := 100000) (N := 64) (V c (Pipeline.arrRef spec3 1)) (V c (Pipeline.arrRef spec3 3))) :=
  (dat3 V c).arrAt_eq_of_cover 6 _ (fun t _ => flushed3_6 V c t) cover3_6'

end Cert.KernelIdeal.Values

end
-- ==== Proof.KValue.lean ====
/-
  The idealized kernel program's two results as the specification's functions of the arguments.

  Launch by launch and stretch by stretch: the first launch leaves `h · W0`; the host aggregates it; the second launch
  leaves `(max (agg + b0) 0) · W1`, that is the first hidden layer times `W1`; the host aggregates again; the third
  launch leaves the second hidden layer times the two heads' weights side by side; the host aggregates once more and
  cuts the result into its two blocks of 64 columns, which are the aggregations of the products with each head's
  weights (a column of an aggregation depends on that column only, and the product with two matrices side by side
  has the two products side by side); the last launch adds the heads' biases and forms the sampled point and the
  divergence term.
-/
import proofs.«119687_j21904333209748_2_alg».proof.Proof.KHost
import proofs.«119687_j21904333209748_2_alg».proof.Proof.Region0
import proofs.«119687_j21904333209748_2_alg».proof.Proof.Region1
import proofs.«119687_j21904333209748_2_alg».proof.Proof.Region2
import proofs.«119687_j21904333209748_2_alg».proof.Proof.Region3
import proofs.«119687_j21904333209748_2_alg».proof.Proof.Spec

set_option maxRecDepth 16384

noncomputable section

namespace Cert.KernelIdeal.Values

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibPlainDot Cert.LibRowBias
open Cert.GcnSpec Cert.LibGcnAgg

variable (m : (ℓ : Loc nD τ sig) → Buf (Elt Ideal) ℓ) (ρ : Dev nD → PrngReg)

/-- The target column: the target rows as an `[E, 1]` column. -/
def rowsCol (rows : IVec S1700000 32) : IVec S1700000x1 32 :=
  broadcastInDim S1700000x1 ![0] bcast_S1700000_S1700000x1_0 rows

/-- The source column: the source nodes, a negative number wrapped once by the node count, as an `[E, 1]` column. -/
def colsCol (cols : IVec S1700000 32) : IVec S1700000x1 32 :=
  broadcastInDim S1700000x1 ![0] bcast_S1700000_S1700000x1_0
    (select (cmpi .slt cols (broadcastInDim S1700000 ![] bcast_S_S1700000 (constantI S_ 32 0#32)))
      (addi cols (broadcastInDim S1700000 ![] bcast_S_S1700000 (constantI S_ 32 100000#32))) cols)

/-- The host's aggregation is the specification's, over the edge data read off the two columns and the weights. -/
theorem aggK_eq (rows cols : IVec S1700000 32) (nrm : FVec Ideal S1700000 .f32) (y : S100000x128.Idx → EReal) :
    aggK rows cols nrm y = agg Z (rowOfCol (rowsCol rows)) (colOfCol (colsCol cols)) (wOfVec nrm) y := by
  unfold aggK
  exact agg_ops (R := 100000) (E := 1700000) (C := 128) (by decide) 0x00000000#32
    scatter_S100000x128_S1700000x1_S1700000x128_1_0_0_1_wf gather_S100000x128_S1700000x1_S1700000x128_1_0_n_n_0_1_1128_wf
    bcast_S_S100000x128 bcast_S1700000_S1700000x1_0 bcast_S1700000x1_S1700000x128_0_1 (rowsCol rows) (colsCol cols) nrm y

section
variable (rowOf : Fin 1700000 → ℤ) (colOf : Fin 1700000 → Fin 100000) (w : Fin 1700000 → EReal)

/-- The left block of 64 columns of the aggregated product with two weight matrices side by side is the aggregated
    product with the left matrix. -/
theorem slice_left (x : S100000x128.Idx → EReal) (a b : S128x64.Idx → EReal) :
    extractStridedSlice S100000x64 ![0, 0]
        (agg Z rowOf colOf w (rowsTimes (M := 100000) (K := 128) (N := 128) x
          (concatenate S128x128 1 [⟨S128x64, a⟩, ⟨S128x64, b⟩] concatenates_S128x64_S128x64_S128x128_d1)))
        slices_S100000x128_S100000x64_0_0
      = agg Z rowOf colOf w (rowsTimes (M := 100000) (K := 128) (N := 64) x a) := by
  funext j
  rw [eq_ix2 j]
  have hq : 0 + (j 1).val < 128 := by have h64 : (j 1).val < 64 := (j 1).isLt; omega
  refine (extractStridedSlice_apply ![0, 0] _ slices_S100000x128_S100000x64_0_0 (ix2 (j 0) (j 1))
    (ix2 (j 0) (⟨0 + (j 1).val, hq⟩ : Fin 128)) (fun d => ?_)).trans ?_
  · match d with
    | ⟨0, _⟩ => show (j 0).val = 0 + (j 0).val; omega
    | ⟨1, _⟩ => rfl
  · exact (agg_cols 0 Z rowOf colOf w _ _ (fun i q h =>
      (rowsTimes_concat_left x a b concatenates_S128x64_S128x64_S128x128_d1 i q ⟨0 + q.val, h⟩ (by show 0 + q.val = q.val; omega)).symm)
      (j 0) (j 1) hq).symm

/-- … and the right block of 64 columns is the aggregated product with the right matrix. -/
theorem slice_right (x : S100000x128.Idx → EReal) (a b : S128x64.Idx → EReal) :
    extractStridedSlice S100000x64 ![0, 64]
        (agg Z rowOf colOf w (rowsTimes (M := 100000) (K := 128) (N := 128) x
          (concatenate S128x128 1 [⟨S128x64, a⟩, ⟨S128x64, b⟩] concatenates_S128x64_S128x64_S128x128_d1)))
        slices_S100000x128_S100000x64_0_64
      = agg Z rowOf colOf w (rowsTimes (M := 100000) (K := 128) (N := 64) x b) := by
  funext j
  rw [eq_ix2 j]
  have hq : 64 + (j 1).val < 128 := by have h64 : (j 1).val < 64 := (j 1).isLt; omega
  refine (extractStridedSlice_apply ![0, 64] _ slices_S100000x128_S100000x64_0_64 (ix2 (j 0) (j 1))
    (ix2 (j 0) (⟨64 + (j 1).val, hq⟩ : Fin 128)) (fun d => ?_)).trans ?_
  · match d with
    | ⟨0, _⟩ => show (j 0).val = 0 + (j 0).val; omega
    | ⟨1, _⟩ => rfl
  · exact (agg_cols 64 Z rowOf colOf w _ _ (fun i q h =>
      (rowsTimes_concat_right x a b concatenates_S128x64_S128x64_S128x128_d1 i q ⟨64 + q.val, h⟩ rfl).symm)
      (j 0) (j 1) hq).symm

end

/-! ## The boundaries, one after the other -/

/-- The edge data of the kernel's program: read off the edge lists and weights computed before the first launch. -/
abbrev RO (c : Dev nD) : Fin 1700000 → ℤ := rowOfCol (rowsCol (W5 m ρ c (Proc.devRef .tc main_v5)))
abbrev CO (c : Dev nD) : Fin 1700000 → Fin 100000 := colOfCol (colsCol (W5 m ρ c (Proc.devRef .tc main_v6)))
abbrev WO (c : Dev nD) : Fin 1700000 → EReal := wOfVec (W5 m ρ c (Proc.devRef .tc main_v34))

/-- The bias vectors as rows. -/
abbrev b0r (c : Dev nD) : S1x128.Idx → EReal := shapeCast S1x128 (m ((c : Thread nD τ).loc main_arg5)) shapeCasts_S128_S1x128
abbrev b1r (c : Dev nD) : S1x128.Idx → EReal := shapeCast S1x128 (m ((c : Thread nD τ).loc main_arg7)) shapeCasts_S128_S1x128
abbrev bmur (c : Dev nD) : S1x64.Idx → EReal := shapeCast S1x64 (m ((c : Thread nD τ).loc main_arg9)) shapeCasts_S64_S1x64
abbrev bstdr (c : Dev nD) : S1x64.Idx → EReal := shapeCast S1x64 (m ((c : Thread nD τ).loc main_arg11)) shapeCasts_S64_S1x64

/-- After the first launch: `h · W0`. -/
theorem at6_v35 (c : Dev nD) : (W6 m ρ c (Proc.devRef .tc main_v35) : S100000x128.Idx → EReal)
    = rowsTimes (M := 100000) (K := 128) (N := 128) (m ((c : Thread nD τ).loc main_arg0)) (m ((c : Thread nD τ).loc main_arg4)) := by
  refine (W6_arr m ρ c 2).trans ((final0 (V5 m ρ) c).trans ?_)
  show rowsTimes (M := 100000) (K := 128) (N := 128) (W5 m ρ c (Proc.devRef .tc main_arg0)) (W5 m ρ c (Proc.devRef .tc main_arg4)) = _
  rw [W5_arg0, W5_arg4]

/-- Before the second launch: the aggregated `h · W0`. -/
theorem at7_v49 (c : Dev nD) : (W7 m ρ c (Proc.devRef .tc main_v49) : S100000x128.Idx → EReal)
    = agg Z (RO m ρ c) (CO m ρ c) (WO m ρ c)
        (rowsTimes (M := 100000) (K := 128) (N := 128) (m ((c : Thread nD τ).loc main_arg0)) (m ((c : Thread nD τ).loc main_arg4))) := by
  rw [W7_v49, W6_v5, W6_v6, W6_v34, at6_v35, aggK_eq]

/-- After the second launch: the first hidden layer times `W1`. -/
theorem at8_v51 (c : Dev nD) : (W8 m ρ c (Proc.devRef .tc main_v51) : S100000x128.Idx → EReal)
    = rowsTimes (M := 100000) (K := 128) (N := 128)
        (hidden (RO m ρ c) (CO m ρ c) (WO m ρ c) (m ((c : Thread nD τ).loc main_arg0)) (m ((c : Thread nD τ).loc main_arg4)) (b0r m c))
        (m ((c : Thread nD τ).loc main_arg6)) := by
  refine (W8_arr m ρ c 3).trans ((final1 (V7 m ρ) c).trans ?_)
  show rowsTimes (M := 100000) (K := 128) (N := 128)
    (rowBiasFloor (M := 100000) (N := 128) (Ideal.ofBits .f32 0x00000000#32) (W7 m ρ c (Proc.devRef .tc main_v49)) (W7 m ρ c (Proc.devRef .tc main_v50)))
    (W7 m ρ c (Proc.devRef .tc main_arg6)) = _
  rw [at7_v49, W7_v50, W6_arg5, W7_arg6]
  rfl

/-- Before the third launch: the aggregated product of the first hidden layer with `W1`. -/
theorem at9_v65 (c : Dev nD) : (W9 m ρ c (Proc.devRef .tc main_v65) : S100000x128.Idx → EReal)
    = agg Z (RO m ρ c) (CO m ρ c) (WO m ρ c)
        (rowsTimes (M := 100000) (K := 128) (N := 128)
          (hidden (RO m ρ c) (CO m ρ c) (WO m ρ c) (m ((c : Thread nD τ).loc main_arg0)) (m ((c : Thread nD τ).loc main_arg4)) (b0r m c))
          (m ((c : Thread nD τ).loc main_arg6))) := by
  rw [W9_v65, W8_v5, W8_v6, W8_v34, at8_v51, aggK_eq]

/-- After the third launch: the second hidden layer times the two heads' weights side by side. -/
theorem at10_v68 (c : Dev nD) : (W10 m ρ c (Proc.devRef .tc main_v68) : S100000x128.Idx → EReal)
    = rowsTimes (M := 100000) (K := 128) (N := 128)
        (feats (RO m ρ c) (CO m ρ c) (WO m ρ c) (m ((c : Thread nD τ).loc main_arg0)) (m ((c : Thread nD τ).loc main_arg4)) (b0r m c)
          (m ((c : Thread nD τ).loc main_arg6)) (b1r m c))
        (concatenate S128x128 1 [⟨S128x64, m ((c : Thread nD τ).loc main_arg8)⟩, ⟨S128x64, m ((c : Thread nD τ).loc main_arg10)⟩]
          concatenates_S128x64_S128x64_S128x128_d1) := by
  refine (W10_arr m ρ c 3).trans ((final2 (V9 m ρ) c).trans ?_)
  show rowsTimes (M := 100000) (K := 128) (N := 128)
    (rowBiasFloor (M := 100000) (N := 128) (Ideal.ofBits .f32 0x00000000#32) (W9 m ρ c (Proc.devRef .tc main_v65)) (W9 m ρ c (Proc.devRef .tc main_v67)))
    (W9 m ρ c (Proc.devRef .tc main_v66)) = _
  rw [at9_v65, W9_v67, W9_v66, W8_arg7, W8_arg8, W8_arg10]
  rfl

/-- Before the last launch: the two raw heads. -/
theorem at11_v83 (c : Dev nD) : (W11 m ρ c (Proc.devRef .tc main_v83) : S100000x64.Idx → EReal)
    = agg Z (RO m ρ c) (CO m ρ c) (WO m ρ c) (rowsTimes (M := 100000) (K := 128) (N := 64)
        (feats (RO m ρ c) (CO m ρ c) (WO m ρ c) (m ((c : Thread nD τ).loc main_arg0)) (m ((c : Thread nD τ).loc main_arg4)) (b0r m c)
          (m ((c : Thread nD τ).loc main_arg6)) (b1r m c)) (m ((c : Thread nD τ).loc main_arg8))) := by
  rw [W11_v83, W10_v5, W10_v6, W10_v34, at10_v68, aggK_eq, slice_left]

theorem at11_v84 (c : Dev nD) : (W11 m ρ c (Proc.devRef .tc main_v84) : S100000x64.Idx → EReal)
    = agg Z (RO m ρ c) (CO m ρ c) (WO m ρ c) (rowsTimes (M := 100000) (K := 128) (N := 64)
        (feats (RO m ρ c) (CO m ρ c) (WO m ρ c) (m ((c : Thread nD τ).loc main_arg0)) (m ((c : Thread nD τ).loc main_arg4)) (b0r m c)
          (m ((c : Thread nD τ).loc main_arg6)) (b1r m c)) (m ((c : Thread nD τ).loc main_arg10))) := by
  rw [W11_v84, W10_v5, W10_v6, W10_v34, at10_v68, aggK_eq, slice_right]

/-- THE FIRST RESULT: the specification's sampled point. -/
theorem result0 (c : Dev nD) : (W12 m ρ c (Proc.devRef .tc main_v87_0) : S100000x64.Idx → EReal)
    = out0 (RO m ρ c) (CO m ρ c) (WO m ρ c) (m ((c : Thread nD τ).loc main_arg0)) (m ((c : Thread nD τ).loc main_arg4)) (b0r m c)
        (m ((c : Thread nD τ).loc main_arg6)) (b1r m c) (m ((c : Thread nD τ).loc main_arg8)) (bmur m c)
        (m ((c : Thread nD τ).loc main_arg10)) (bstdr m c) (m ((c : Thread nD τ).loc main_arg3)) := by
  refine (W12_arr m ρ c 5).trans ((final3_5 (V11 m ρ) c).trans ?_)
  show sample (M := 100000) (N := 64)
    (rowBias (M := 100000) (N := 64) (W11 m ρ c (Proc.devRef .tc main_v83)) (W11 m ρ c (Proc.devRef .tc main_v85)))
    (rowBias (M := 100000) (N := 64) (W11 m ρ c (Proc.devRef .tc main_v84)) (W11 m ρ c (Proc.devRef .tc main_v86)))
    (W11 m ρ c (Proc.devRef .tc main_arg3)) = _
  rw [at11_v83, at11_v84, W11_v85, W11_v86, W10_arg9, W10_arg11, W11_arg3]
  rfl

/-- THE SECOND RESULT: the specification's divergence term. -/
theorem result1 (c : Dev nD) : (W12 m ρ c (Proc.devRef .tc main_v87_1) : S100000x64.Idx → EReal)
    = out1 (RO m ρ c) (CO m ρ c) (WO m ρ c) (m ((c : Thread nD τ).loc main_arg0)) (m ((c : Thread nD τ).loc main_arg4)) (b0r m c)
        (m ((c : Thread nD τ).loc main_arg6)) (b1r m c) (m ((c : Thread nD τ).loc main_arg8)) (bmur m c)
        (m ((c : Thread nD τ).loc main_arg10)) (bstdr m c) := by
  refine (W12_arr m ρ c 6).trans ((final3_6 (V11 m ρ) c).trans ?_)
  show kl (M := 100000) (N := 64)
    (rowBias (M := 100000) (N := 64) (W11 m ρ c (Proc.devRef .tc main_v83)) (W11 m ρ c (Proc.devRef .tc main_v85)))
    (rowBias (M := 100000) (N := 64) (W11 m ρ c (Proc.devRef .tc main_v84)) (W11 m ρ c (Proc.devRef .tc main_v86))) = _
  rw [at11_v83, at11_v84, W11_v85, W11_v86, W10_arg9, W10_arg11]
  rfl

end Cert.KernelIdeal.Values

end
-- ==== Proof.LibAfterAppend.lean ====
/-
  Host lines run in two stretches.

  The contents a list of host operations leaves are a left fold over the list, so running `l₁ ++ l₂` from contents `W`
  is running `l₂` from what `l₁` leaves. With `List.take_append_drop` (or a program's own split of its host lines into
  named parts) this cuts a long stretch at any line: the contents before the cut can then be kept as one opaque valuation
  while the lines after it are read back one reference at a time, at a cost that grows with the lines after the cut only.
-/
import Idealize.ShloMosaic.Lib.StableHlo.Run

namespace Cert.LibAfterAppend

open Idealize.ShloMosaic Idealize.ShloMosaic.StableHlo

/-- Running two stretches of host lines one after the other. -/
theorem after_append {τ : Topo} {sig : RefSig} {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => exact ih _

/-- A stretch cut after its first `k` lines. -/
theorem after_take_drop {τ : Topo} {sig : RefSig} {Val : EltTy → Type} (k : ℕ) (l : List (HloOp τ sig Val)) (W : Valuation τ sig Val) :
    StableHlo.after l W = StableHlo.after (l.drop k) (StableHlo.after (l.take k) W) := by
  rw [← after_append, List.take_append_drop]

end Cert.LibAfterAppend
-- ==== Proof.Edges.lean ====
/-
  The edge data is the same in both programs.

  Before its first launch the kernel's program computes, from the edge index and the given weights, the edges' target
  rows, their source nodes and their normalised weights by the very host operations, in the very order, by which the
  reference computes them. So the three arrays are the reference's stages, as functions of the edge index and the
  weights: the operations are never opened.
-/
import proofs.«119687_j21904333209748_2_alg».proof.Proof.KHost
import proofs.«119687_j21904333209748_2_alg».proof.Proof.Gen.ReferenceIdeal.Read
import proofs.«119687_j21904333209748_2_alg».proof.Proof.LibAfterAppend

set_option maxRecDepth 16384

noncomputable section

namespace Cert.KernelIdeal.Values

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.StableHlo

variable (m : (ℓ : Loc nD τ sig) → Buf (Elt Ideal) ℓ) (ρ : Dev nD → PrngReg)

set_option maxHeartbeats 8000000 in
/-- The target rows. -/
theorem edge_rows (c : Dev nD) : W5 m ρ c (Proc.devRef .tc main_v5)
    = Cert.ReferenceIdeal.Read.val_main_v5 (F := Ideal) (m ((c : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v5) = _
  after_results_simp
  rfl

set_option maxHeartbeats 8000000 in
/-- The source nodes. -/
theorem edge_cols (c : Dev nD) : W5 m ρ c (Proc.devRef .tc main_v6)
    = Cert.ReferenceIdeal.Read.val_main_v6 (F := Ideal) (m ((c : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v6) = _
  after_results_simp
  rfl

/-- The contents after the program's first ten host lines: the two edge lists and the given weights followed by the
    self loops' ones are there, the degrees are not yet. -/
def Wc (c : Dev nD) : Valuation τ sig (Elt Ideal) :=
  StableHlo.after ((hostOps0 (F := Ideal)).take 10) (W0 m ρ c)

/-- The first stretch of host lines, cut after its tenth line. -/
theorem W1_cut (c : Dev nD) : W1 m ρ c = StableHlo.after ((hostOps0 (F := Ideal)).drop 10) (Wc m ρ c) :=
  Cert.LibAfterAppend.after_take_drop 10 hostOps0 (W0 m ρ c)

set_option maxHeartbeats 8000000 in
theorem Wc_v5 (c : Dev nD) : Wc m ρ c (Proc.devRef .tc main_v5)
    = Cert.ReferenceIdeal.Read.val_main_v5 (F := Ideal) (m ((c : Thread nD τ).loc main_arg1)) := by
  unfold Wc
  simp only [hostOps0, List.take_succ_cons, List.take_zero]
  after_results_simp
  rfl

set_option maxHeartbeats 8000000 in
theorem Wc_v6 (c : Dev nD) : Wc m ρ c (Proc.devRef .tc main_v6)
    = Cert.ReferenceIdeal.Read.val_main_v6 (F := Ideal) (m ((c : Thread nD τ).loc main_arg1)) := by
  unfold Wc
  simp only [hostOps0, List.take_succ_cons, List.take_zero]
  after_results_simp
  rfl

set_option maxHeartbeats 8000000 in
theorem Wc_v8 (c : Dev nD) : Wc m ρ c (Proc.devRef .tc main_v8)
    = Cert.ReferenceIdeal.Read.val_main_v8 (F := Ideal) (m ((c : Thread nD τ).loc main_arg2)) := by
  unfold Wc
  simp only [hostOps0, List.take_succ_cons, List.take_zero]
  after_results_simp
  rfl

/-! ## The weights' operations, one at a time, in the reference's spelling

Each equation is between the same operation over the two programs' own (equal) dimension records and constants; the
operands are variables, so nothing is computed. -/

/-- The weighted degrees. -/
theorem deg_eq (r : IVec S1700000 32) (w : FVec Ideal S1700000 .f32) :
    Host.scatterAdd (F := Ideal) scatter_S100000_S1700000x1_S1700000_n_0_0_1 (broadcastInDim S100000 ![] bcast_S_S100000 (constant (F := Ideal) S_ .f32 0x00000000#32))
      (broadcastInDim S1700000x1 ![0] bcast_S1700000_S1700000x1_0 r) w
    = Host.scatterAdd (F := Ideal) Cert.ReferenceIdeal.scatter_S100000_S1700000x1_S1700000_n_0_0_1 (Cert.ReferenceIdeal.Read.val_main_v9 (F := Ideal))
      (broadcastInDim Cert.ReferenceIdeal.S1700000x1 ![0] Cert.ReferenceIdeal.Gen.bcast_S1700000_S1700000x1_0 r) w := rfl

/-- "The degree is positive". -/
theorem pos_eq (d : FVec Ideal S100000 .f32) :
    cmpf (F := Ideal) .ogt d (broadcastInDim S100000 ![] bcast_S_S100000 (constant (F := Ideal) S_ .f32 0x00000000#32)) = cmpf (F := Ideal) .ogt d (Cert.ReferenceIdeal.Read.val_main_v14 (F := Ideal)) := rfl

/-- The degree where positive, one elsewhere. -/
theorem where0_eq (p : IVec S100000 1) (d : FVec Ideal S100000 .f32) :
    (TRef.of (T := ⟨S100000, .f32⟩) main_v16).toBuf (Val := Elt Ideal)
      (select ((TRef.of (T := ⟨S100000, .i1⟩) main_v15).ofBuf (Val := Elt Ideal) p) ((TRef.of (T := ⟨S100000, .f32⟩) main_v11).ofBuf (Val := Elt Ideal) d)
        ((TRef.of (T := ⟨S100000, .f32⟩) main_call0_v1).ofBuf (Val := Elt Ideal) ((TRef.of (T := ⟨S100000, .f32⟩) main_call0_v1).toBuf (Val := Elt Ideal)
          (broadcastInDim S100000 ![] bcast_S_S100000
            ((TRef.of (T := ⟨S_, .f32⟩) main_call0_v0).ofBuf (Val := Elt Ideal) ((TRef.of (T := ⟨S_, .f32⟩) main_call0_v0).toBuf (Val := Elt Ideal)
              (id ((TRef.of (T := ⟨S_, .f32⟩) main_cst_3).ofBuf (Val := Elt Ideal) (constant (F := Ideal) S_ .f32 0x3F800000#32)))))))))
    = select p d (Cert.ReferenceIdeal.Read.val_main_call0_v1 (F := Ideal)) := rfl

/-- The inverse square root where the degree is positive, zero elsewhere. -/
theorem where1_eq (p : IVec S100000 1) (e : FVec Ideal S100000 .f32) :
    (TRef.of (T := ⟨S100000, .f32⟩) main_v18).toBuf (Val := Elt Ideal)
      (select ((TRef.of (T := ⟨S100000, .i1⟩) main_v13).ofBuf (Val := Elt Ideal) p) ((TRef.of (T := ⟨S100000, .f32⟩) main_v17).ofBuf (Val := Elt Ideal) e)
        ((TRef.of (T := ⟨S100000, .f32⟩) main_call1_v1).ofBuf (Val := Elt Ideal) ((TRef.of (T := ⟨S100000, .f32⟩) main_call1_v1).toBuf (Val := Elt Ideal)
          (broadcastInDim S100000 ![] bcast_S_S100000
            ((TRef.of (T := ⟨S_, .f32⟩) main_call1_v0).ofBuf (Val := Elt Ideal) ((TRef.of (T := ⟨S_, .f32⟩) main_call1_v0).toBuf (Val := Elt Ideal)
              (id ((TRef.of (T := ⟨S_, .f32⟩) main_cst_4).ofBuf (Val := Elt Ideal) (constant (F := Ideal) S_ .f32 0x00000000#32)))))))))
    = select p e (Cert.ReferenceIdeal.Read.val_main_call1_v1 (F := Ideal)) := rfl

/-- An entry per edge, read at the edge's node (a negative node number wrapped once). -/
theorem gather_eq (x : FVec Ideal S100000 .f32) (r : IVec S1700000 32) :
    Host.gather gather_S100000_S1700000x1_S1700000_n_0_n_n_0_1_1 x (broadcastInDim S1700000x1 ![0] bcast_S1700000_S1700000x1_0
        (select (cmpi .slt r (broadcastInDim S1700000 ![] bcast_S_S1700000 (constantI S_ 32 0#32)))
          (addi r (broadcastInDim S1700000 ![] bcast_S_S1700000 (constantI S_ 32 100000#32))) r))
    = Host.gather Cert.ReferenceIdeal.gather_S100000_S1700000x1_S1700000_n_0_n_n_0_1_1 x
      (broadcastInDim Cert.ReferenceIdeal.S1700000x1 ![0] Cert.ReferenceIdeal.Gen.bcast_S1700000_S1700000x1_0
        (select (cmpi .slt r (Cert.ReferenceIdeal.Read.val_main_v19 (F := Ideal)))
          (addi r (Cert.ReferenceIdeal.Read.val_main_v21 (F := Ideal))) r)) := rfl

set_option maxHeartbeats 64000000 in
/-- The edge weights: every later host line reads the edge lists and the extended weights as the first ten lines left
    them. -/
theorem edge_weights (c : Dev nD) : W5 m ρ c (Proc.devRef .tc main_v34)
    = Cert.ReferenceIdeal.Read.val_main_v34 (F := Ideal) (m ((c : Thread nD τ).loc main_arg1)) (m ((c : Thread nD τ).loc main_arg2)) := by
  show StableHlo.after hostOps0_4 (StableHlo.after hostOps0_3 (StableHlo.after hostOps0_2 (StableHlo.after hostOps0_1
    (W1 m ρ c)))) (Proc.devRef .tc main_v34) = _
  rw [W1_cut]
  simp only [hostOps0, List.drop_succ_cons, List.drop_zero]
  after_results_simp
  rw [Wc_v5, Wc_v6, Wc_v8]
  rw [deg_eq, pos_eq, where0_eq, where1_eq, gather_eq, gather_eq]
  unfold Cert.ReferenceIdeal.Read.val_main_v34 Cert.ReferenceIdeal.Read.val_main_v26 Cert.ReferenceIdeal.Read.val_main_v25 Cert.ReferenceIdeal.Read.val_main_v33 Cert.ReferenceIdeal.Read.val_main_v24 Cert.ReferenceIdeal.Read.val_main_v23 Cert.ReferenceIdeal.Read.val_main_v20 Cert.ReferenceIdeal.Read.val_main_v22 Cert.ReferenceIdeal.Read.val_main_v32 Cert.ReferenceIdeal.Read.val_main_v31 Cert.ReferenceIdeal.Read.val_main_v28 Cert.ReferenceIdeal.Read.val_main_v30 Cert.ReferenceIdeal.Read.val_main_v18 Cert.ReferenceIdeal.Read.val_main_v17 Cert.ReferenceIdeal.Read.val_main_v16 Cert.ReferenceIdeal.Read.val_main_v15 Cert.ReferenceIdeal.Read.val_main_v13 Cert.ReferenceIdeal.Read.val_main_v11 Cert.ReferenceIdeal.Read.val_main_v10
  rfl

end Cert.KernelIdeal.Values

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«119687_j21904333209748_2_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.RefValue.lean ====
/-
  The reference program's two results, as the specification's `out0` and `out1` of the argument arrays.

  The reference spells each of its four graph layers as: a matrix product of the node features with a weight matrix,
  the rows of that product gathered by the edges' source column, scaled by the edge weights broadcast over the
  columns, scattered with accumulation by the edges' target column into a splat of zero, and a bias vector (broadcast
  twice) added; the two hidden layers then take the maximum with a splat of zero. Every layer reads the same three
  edge columns (each layer rebuilds them from the same operands, with the same constants). So, layer by layer, the
  product is `rowsTimes`, the scatter of the scaled gathered rows is `agg`, the biased sum is `rowBias` (with the
  maximum, `rowBiasFloor`), and the layers are the specification's `hidden`, `feats` and `head`. The tail of the
  program is entry by entry: the sampled point is the mean plus the noise times the exponential of the second head,
  and the divergence term is `-ls + ½ (exp(ls)² + mu² - 1)`, which are `sample` and `kl` by unfolding.
-/
import proofs.«119687_j21904333209748_2_alg».proof.Proof.Gen.ReferenceIdeal.Read
import proofs.«119687_j21904333209748_2_alg».proof.Proof.Spec
import proofs.«119687_j21904333209748_2_alg».proof.Proof.LibRowBiasHost

noncomputable section

namespace Cert.ReferenceIdeal.RefValue

open Cert.ReferenceIdeal Cert.ReferenceIdeal.Gen Cert.ReferenceIdeal.Read Idealize.ShloMosaic Idealize.ShloMosaic.ValueIdx Cert.GcnSpec
  Cert.LibPlainDot Cert.LibRowBias Cert.LibGcnAgg

/-! ### Every layer reads the same edge columns, weights and zero splat -/

theorem tgt65 (x1 : (⟨S2x1600000, .i32⟩ : BufTy).Contents (Elt Ideal)) : val_main_v65 (F := Ideal) x1 = val_main_v47 (F := Ideal) x1 := rfl
theorem tgt83 (x1 : (⟨S2x1600000, .i32⟩ : BufTy).Contents (Elt Ideal)) : val_main_v83 (F := Ideal) x1 = val_main_v47 (F := Ideal) x1 := rfl
theorem tgt100 (x1 : (⟨S2x1600000, .i32⟩ : BufTy).Contents (Elt Ideal)) : val_main_v100 (F := Ideal) x1 = val_main_v47 (F := Ideal) x1 := rfl
theorem src59 (x1 : (⟨S2x1600000, .i32⟩ : BufTy).Contents (Elt Ideal)) : val_main_v59 (F := Ideal) x1 = val_main_v41 (F := Ideal) x1 := rfl
theorem src77 (x1 : (⟨S2x1600000, .i32⟩ : BufTy).Contents (Elt Ideal)) : val_main_v77 (F := Ideal) x1 = val_main_v41 (F := Ideal) x1 := rfl
theorem src94 (x1 : (⟨S2x1600000, .i32⟩ : BufTy).Contents (Elt Ideal)) : val_main_v94 (F := Ideal) x1 = val_main_v41 (F := Ideal) x1 := rfl
theorem wts62 (x1 : (⟨S2x1600000, .i32⟩ : BufTy).Contents (Elt Ideal)) (x2 : (⟨S1600000, .f32⟩ : BufTy).Contents (Elt Ideal)) : val_main_v62 (F := Ideal) x1 x2 = val_main_v44 (F := Ideal) x1 x2 := rfl
theorem wts97 (x1 : (⟨S2x1600000, .i32⟩ : BufTy).Contents (Elt Ideal)) (x2 : (⟨S1600000, .f32⟩ : BufTy).Contents (Elt Ideal)) : val_main_v97 (F := Ideal) x1 x2 = val_main_v80 (F := Ideal) x1 x2 := rfl
theorem zero64 : val_main_v64 (F := Ideal) = val_main_v46 (F := Ideal) := rfl
theorem zero99 : val_main_v99 (F := Ideal) = val_main_v82 (F := Ideal) := rfl

/-! ### The program's dimension records are the row scatter, the row gather and the plain product -/

theorem mulf_fun {s : Shape} (a b : FVec Ideal s .f32) : mulf a b = fun i => a i * b i := rfl

theorem scatter128_eq : scatter_S100000x128_S1700000x1_S1700000x128_1_0_0_1
    = Cert.Voxel.Ref.rowsDims 100000 1700000 128 scatter_S100000x128_S1700000x1_S1700000x128_1_0_0_1_wf := rfl
theorem gather128_eq : gather_S100000x128_S1700000x1_S1700000x128_1_0_n_n_0_1_1128
    = Cert.GatherRows.rowsDims 100000 1700000 128 gather_S100000x128_S1700000x1_S1700000x128_1_0_n_n_0_1_1128_wf := rfl
theorem scatter64_eq : scatter_S100000x64_S1700000x1_S1700000x64_1_0_0_1
    = Cert.Voxel.Ref.rowsDims 100000 1700000 64 scatter_S100000x64_S1700000x1_S1700000x64_1_0_0_1_wf := rfl
theorem gather64_eq : gather_S100000x64_S1700000x1_S1700000x64_1_0_n_n_0_1_164
    = Cert.GatherRows.rowsDims 100000 1700000 64 gather_S100000x64_S1700000x1_S1700000x64_1_0_n_n_0_1_164_wf := rfl
theorem dotrec128_eq : dot_S100000x128_S128x128_S100000x128_1_0_0_1_n_n = DotDims.plain 100000 128 128 := rfl
theorem dotrec64_eq : dot_S100000x128_S128x64_S100000x64_1_0_0_1_n_n = DotDims.plain 100000 128 64 := rfl

/-! ### The aggregation, 128 and 64 columns wide -/

/-- The scatter of the scaled gathered rows of a 128-column array `y` is `agg` of `y` from zero. -/
theorem agg128 (x1 : (⟨S2x1600000, .i32⟩ : BufTy).Contents (Elt Ideal)) (x2 : (⟨S1600000, .f32⟩ : BufTy).Contents (Elt Ideal)) (y : FVec Ideal ⟨2, ![100000, 128]⟩ .f32) :
    Host.scatterAdd (F := Ideal) scatter_S100000x128_S1700000x1_S1700000x128_1_0_0_1 (val_main_v46 (F := Ideal)) (val_main_v47 (F := Ideal) x1)
        (mulf (F := Ideal) (s := S1700000x128) (φ := .f32) (Host.gather gather_S100000x128_S1700000x1_S1700000x128_1_0_n_n_0_1_1128 y (val_main_v41 (F := Ideal) x1)) (val_main_v44 (F := Ideal) x1 x2))
      = agg Z (rowOfCol (val_main_v47 (F := Ideal) x1)) (colOfCol (val_main_v41 (F := Ideal) x1)) (wOfVec (val_main_v34 (F := Ideal) x1 x2)) y := by
  unfold val_main_v46 val_main_cst_10 val_main_v44 val_main_v43 Host.scatterAdd rowOfCol colOfCol wOfVec
  rw [Ideal.hostScatterAdd_def, mulf_fun, scatter128_eq, gather128_eq]
  exact agg_ops (R := 100000) (E := 1700000) (C := 128) (by decide) 0x00000000#32 scatter_S100000x128_S1700000x1_S1700000x128_1_0_0_1_wf
    gather_S100000x128_S1700000x1_S1700000x128_1_0_n_n_0_1_1128_wf bcast_S_S100000x128 bcast_S1700000_S1700000x1_0
    bcast_S1700000x1_S1700000x128_0_1 (val_main_v47 (F := Ideal) x1) (val_main_v41 (F := Ideal) x1) (val_main_v34 (F := Ideal) x1 x2) y

/-- The same for a 64-column array. -/
theorem agg64 (x1 : (⟨S2x1600000, .i32⟩ : BufTy).Contents (Elt Ideal)) (x2 : (⟨S1600000, .f32⟩ : BufTy).Contents (Elt Ideal)) (y : FVec Ideal ⟨2, ![100000, 64]⟩ .f32) :
    Host.scatterAdd (F := Ideal) scatter_S100000x64_S1700000x1_S1700000x64_1_0_0_1 (val_main_v82 (F := Ideal)) (val_main_v47 (F := Ideal) x1)
        (mulf (F := Ideal) (s := S1700000x64) (φ := .f32) (Host.gather gather_S100000x64_S1700000x1_S1700000x64_1_0_n_n_0_1_164 y (val_main_v41 (F := Ideal) x1)) (val_main_v80 (F := Ideal) x1 x2))
      = agg Z (rowOfCol (val_main_v47 (F := Ideal) x1)) (colOfCol (val_main_v41 (F := Ideal) x1)) (wOfVec (val_main_v34 (F := Ideal) x1 x2)) y := by
  unfold val_main_v82 val_main_cst_16 val_main_v80 val_main_v79 Host.scatterAdd rowOfCol colOfCol wOfVec
  rw [Ideal.hostScatterAdd_def, mulf_fun, scatter64_eq, gather64_eq]
  exact agg_ops (R := 100000) (E := 1700000) (C := 64) (by decide) 0x00000000#32 scatter_S100000x64_S1700000x1_S1700000x64_1_0_0_1_wf
    gather_S100000x64_S1700000x1_S1700000x64_1_0_n_n_0_1_164_wf bcast_S_S100000x64 bcast_S1700000_S1700000x1_0
    bcast_S1700000x1_S1700000x64_0_1 (val_main_v47 (F := Ideal) x1) (val_main_v41 (F := Ideal) x1) (val_main_v34 (F := Ideal) x1 x2) y

/-! ### The products -/

theorem dot128 (l : FVec Ideal ⟨2, ![100000, 128]⟩ .f32) (r : FVec Ideal ⟨2, ![128, 128]⟩ .f32) :
    Host.dotGeneral (F := Ideal) dot_S100000x128_S128x128_S100000x128_1_0_0_1_n_n none l r = rowsTimes l r := by
  rw [dotrec128_eq]
  exact dotGeneral_plain (M := 100000) (K := 128) (N := 128) none .single l r

theorem dot64 (l : FVec Ideal ⟨2, ![100000, 128]⟩ .f32) (r : FVec Ideal ⟨2, ![128, 64]⟩ .f32) :
    Host.dotGeneral (F := Ideal) dot_S100000x128_S128x64_S100000x64_1_0_0_1_n_n none l r = rowsTimes l r := by
  rw [dotrec64_eq]
  exact dotGeneral_plain (M := 100000) (K := 128) (N := 64) none .single l r

/-! ### The layers -/

/-- The first layer's aggregation. -/
theorem v48_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x128, .f32⟩ : BufTy).Contents (Elt Ideal)) :
    val_main_v48 (F := Ideal) x0 x1 x2 x4 = agg Z (rowOfCol (val_main_v47 (F := Ideal) x1)) (colOfCol (val_main_v41 (F := Ideal) x1)) (wOfVec (val_main_v34 (F := Ideal) x1 x2)) (rowsTimes x0 x4) := by
  unfold val_main_v48 val_main_v45 val_main_v42 val_main_v35
  rw [dot128]
  exact agg128 x1 x2 _

/-- The first hidden layer. -/
theorem v52_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x128, .f32⟩ : BufTy).Contents (Elt Ideal)) (x5 : (⟨S128, .f32⟩ : BufTy).Contents (Elt Ideal)) (hc128 : (⟨1, ![128]⟩ : Shape).ShapeCasts ⟨2, ![1, 128]⟩) :
    val_main_v52 (F := Ideal) x0 x1 x2 x4 x5 = hidden (rowOfCol (val_main_v47 (F := Ideal) x1)) (colOfCol (val_main_v41 (F := Ideal) x1)) (wOfVec (val_main_v34 (F := Ideal) x1 x2)) x0 x4 (shapeCast ⟨2, ![1, 128]⟩ x5 hc128) := by
  unfold val_main_v52 val_main_v51 val_main_v50 val_main_v49 val_main_call2_v0 val_main_call2_cst Cert.GcnSpec.hidden
  rw [v48_eq]
  exact max_addf_bcastRow 0x00000000#32 _ x5 bcast_S_S100000x128 bcast_S128_S1x128_1 bcast_S1x128_S100000x128_0_1 hc128

/-- The second layer's aggregation. -/
theorem v66_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v66 (F := Ideal) x0 x1 x2 x4 x5 x6
      = agg Z (rowOfCol (val_main_v47 (F := Ideal) x1)) (colOfCol (val_main_v41 (F := Ideal) x1)) (wOfVec (val_main_v34 (F := Ideal) x1 x2)) (rowsTimes (val_main_v52 (F := Ideal) x0 x1 x2 x4 x5) x6) := by
  unfold val_main_v66 val_main_v63 val_main_v60 val_main_v53
  rw [dot128, zero64, tgt65, src59, wts62]
  exact agg128 x1 x2 _

/-- The second hidden layer: the features both heads read. -/
theorem v70_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (hc128 : (⟨1, ![128]⟩ : Shape).ShapeCasts ⟨2, ![1, 128]⟩) :
    val_main_v70 (F := Ideal) x0 x1 x2 x4 x5 x6 x7 = feats (rowOfCol (val_main_v47 (F := Ideal) x1)) (colOfCol (val_main_v41 (F := Ideal) x1)) (wOfVec (val_main_v34 (F := Ideal) x1 x2)) x0 x4 (shapeCast ⟨2, ![1, 128]⟩ x5 hc128) x6 (shapeCast ⟨2, ![1, 128]⟩ x7 hc128) := by
  unfold val_main_v70 val_main_v69 val_main_v68 val_main_v67 val_main_call3_v0 val_main_call3_cst Cert.GcnSpec.feats
  rw [v66_eq, v52_eq x0 x1 x2 x4 x5 hc128]
  generalize hidden (rowOfCol (val_main_v47 (F := Ideal) x1)) (colOfCol (val_main_v41 (F := Ideal) x1)) (wOfVec (val_main_v34 (F := Ideal) x1 x2)) x0 x4 (shapeCast ⟨2, ![1, 128]⟩ x5 hc128) = h1
  unfold Cert.GcnSpec.hidden
  exact max_addf_bcastRow 0x00000000#32 _ x7 bcast_S_S100000x128 bcast_S128_S1x128_1 bcast_S1x128_S100000x128_0_1 hc128

/-- The first head: the mean. -/
theorem v87_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) (hc128 : (⟨1, ![128]⟩ : Shape).ShapeCasts ⟨2, ![1, 128]⟩) (hc64 : (⟨1, ![64]⟩ : Shape).ShapeCasts ⟨2, ![1, 64]⟩) :
    val_main_v87 (F := Ideal) x0 x1 x2 x4 x5 x6 x7 x8 x9 = head (rowOfCol (val_main_v47 (F := Ideal) x1)) (colOfCol (val_main_v41 (F := Ideal) x1)) (wOfVec (val_main_v34 (F := Ideal) x1 x2)) (feats (rowOfCol (val_main_v47 (F := Ideal) x1)) (colOfCol (val_main_v41 (F := Ideal) x1)) (wOfVec (val_main_v34 (F := Ideal) x1 x2)) x0 x4 (shapeCast ⟨2, ![1, 128]⟩ x5 hc128) x6 (shapeCast ⟨2, ![1, 128]⟩ x7 hc128)) x8 (shapeCast ⟨2, ![1, 64]⟩ x9 hc64) := by
  unfold val_main_v87 val_main_v86 val_main_v85 val_main_v84 val_main_v81 val_main_v78 val_main_v71 Cert.GcnSpec.head
  rw [dot64, tgt83, src77, v70_eq x0 x1 x2 x4 x5 x6 x7 hc128, agg64]
  exact addf_bcastRow _ x9 bcast_S64_S1x64_1 bcast_S1x64_S100000x64_0_1 hc64

/-- The second head: the logarithm of the standard deviation. -/
theorem v104_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x10 : (⟨S128x64, .f32⟩ : BufTy).Contents (Elt Ideal)) (x11 : (⟨S64, .f32⟩ : BufTy).Contents (Elt Ideal)) (hc128 : (⟨1, ![128]⟩ : Shape).ShapeCasts ⟨2, ![1, 128]⟩) (hc64 : (⟨1, ![64]⟩ : Shape).ShapeCasts ⟨2, ![1, 64]⟩) :
    val_main_v104 (F := Ideal) x0 x1 x2 x4 x5 x6 x7 x10 x11 = head (rowOfCol (val_main_v47 (F := Ideal) x1)) (colOfCol (val_main_v41 (F := Ideal) x1)) (wOfVec (val_main_v34 (F := Ideal) x1 x2)) (feats (rowOfCol (val_main_v47 (F := Ideal) x1)) (colOfCol (val_main_v41 (F := Ideal) x1)) (wOfVec (val_main_v34 (F := Ideal) x1 x2)) x0 x4 (shapeCast ⟨2, ![1, 128]⟩ x5 hc128) x6 (shapeCast ⟨2, ![1, 128]⟩ x7 hc128)) x10 (shapeCast ⟨2, ![1, 64]⟩ x11 hc64) := by
  unfold val_main_v104 val_main_v103 val_main_v102 val_main_v101 val_main_v98 val_main_v95 val_main_v88 Cert.GcnSpec.head
  rw [dot64, zero99, tgt100, src94, wts97, v70_eq x0 x1 x2 x4 x5 x6 x7 hc128, agg64]
  exact addf_bcastRow _ x11 bcast_S64_S1x64_1 bcast_S1x64_S100000x64_0_1 hc64

/-! ### The tail, entry by entry -/

/-- The sum of the mean and the noise times the exponential of the second head is the sampled point. -/
theorem tail0 (mu ls r : FVec Ideal ⟨2, ![100000, 64]⟩ .f32) :
    addf mu (mulf r (Host.exp ls)) = sample mu ls r := by
  funext i
  simp only [addf, mulf, Host.exp, Ideal.addf_def, Ideal.mulf_def, Ideal.hostUnary_exp_def, sample]

/-- `-ls + ½ (exp(ls)² + mu² - 1)`, with the half and the one read off their broadcast words, is the divergence term. -/
theorem tail1 (mu ls : FVec Ideal ⟨2, ![100000, 64]⟩ .f32) :
    addf (Host.negf ls)
        (mulf (broadcastInDim S100000x64 ![] bcast_S_S100000x64 (constant (F := Ideal) S_ .f32 0x3F000000#32))
          (subf (addf (mulf (Host.exp ls) (Host.exp ls)) (mulf mu mu))
            (broadcastInDim S100000x64 ![] bcast_S_S100000x64 (constant (F := Ideal) S_ .f32 0x3F800000#32))))
      = kl mu ls := by
  funext i
  simp only [addf, mulf, subf, Host.negf, Host.exp, broadcastInDim, constant, Ideal.addf_def, Ideal.mulf_def, Ideal.subf_def,
    Ideal.hostNegf_def, Ideal.negf_def, Ideal.hostUnary_exp_def, Ideal.ofBits_def, kl]

/-! ### The two results -/

/-- The first result is the specification's sampled point. -/
theorem ref_out0 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S100000x64, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) (x10 : (⟨S128x64, .f32⟩ : BufTy).Contents (Elt Ideal)) (x11 : (⟨S64, .f32⟩ : BufTy).Contents (Elt Ideal))
    (hc128 : (⟨1, ![128]⟩ : Shape).ShapeCasts ⟨2, ![1, 128]⟩) (hc64 : (⟨1, ![64]⟩ : Shape).ShapeCasts ⟨2, ![1, 64]⟩) :
    val_main_v107 (F := Ideal) x0 x1 x2 x3 x4 x5 x6 x7 x8 x9 x10 x11
      = out0 (rowOfCol (val_main_v47 (F := Ideal) x1)) (colOfCol (val_main_v41 (F := Ideal) x1)) (wOfVec (val_main_v34 (F := Ideal) x1 x2))
          x0 x4 (shapeCast ⟨2, ![1, 128]⟩ x5 hc128) x6 (shapeCast ⟨2, ![1, 128]⟩ x7 hc128) x8 (shapeCast ⟨2, ![1, 64]⟩ x9 hc64) x10 (shapeCast ⟨2, ![1, 64]⟩ x11 hc64) x3 := by
  unfold val_main_v107 val_main_v106 val_main_v105 Cert.GcnSpec.out0
  rw [v87_eq x0 x1 x2 x4 x5 x6 x7 x8 x9 hc128 hc64, v104_eq x0 x1 x2 x4 x5 x6 x7 x10 x11 hc128 hc64]
  exact tail0 _ _ x3

/-- The second result is the specification's divergence term. -/
theorem ref_out1 (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) (x10 : (⟨S128x64, .f32⟩ : BufTy).Contents (Elt Ideal)) (x11 : (⟨S64, .f32⟩ : BufTy).Contents (Elt Ideal))
    (hc128 : (⟨1, ![128]⟩ : Shape).ShapeCasts ⟨2, ![1, 128]⟩) (hc64 : (⟨1, ![64]⟩ : Shape).ShapeCasts ⟨2, ![1, 64]⟩) :
    val_main_v116 (F := Ideal) x0 x1 x2 x4 x5 x6 x7 x8 x9 x10 x11
      = out1 (rowOfCol (val_main_v47 (F := Ideal) x1)) (colOfCol (val_main_v41 (F := Ideal) x1)) (wOfVec (val_main_v34 (F := Ideal) x1 x2))
          x0 x4 (shapeCast ⟨2, ![1, 128]⟩ x5 hc128) x6 (shapeCast ⟨2, ![1, 128]⟩ x7 hc128) x8 (shapeCast ⟨2, ![1, 64]⟩ x9 hc64) x10 (shapeCast ⟨2, ![1, 64]⟩ x11 hc64) := by
  unfold val_main_v116 val_main_v115 val_main_v114 val_main_cst_21 val_main_v113 val_main_v112 val_main_cst_20 val_main_v111
    val_main_v110 val_main_v109 val_main_v108 val_main_v105 Cert.GcnSpec.out1
  rw [v87_eq x0 x1 x2 x4 x5 x6 x7 x8 x9 hc128 hc64, v104_eq x0 x1 x2 x4 x5 x6 x7 x10 x11 hc128 hc64]
  exact tail1 _ _

end Cert.ReferenceIdeal.RefValue

end
-- ==== Proof.Bridge.lean ====
/-
  The kernel program's edge data is the reference's.

  The target column, the source column and the edge weights the kernel's aggregations read are, as functions of the
  edge index and the given weights, the reference's: the same broadcast of the same target rows, the same wrapped
  and broadcast source nodes, the same weights.
-/
import proofs.«119687_j21904333209748_2_alg».proof.Proof.KValue
import proofs.«119687_j21904333209748_2_alg».proof.Proof.Edges
import proofs.«119687_j21904333209748_2_alg».proof.Proof.RefValue

set_option maxRecDepth 16384

noncomputable section

namespace Cert.KernelIdeal.Values

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.GcnSpec

variable (m : (ℓ : Loc nD τ sig) → Buf (Elt Ideal) ℓ) (ρ : Dev nD → PrngReg)

theorem RO_eq (c : Dev nD) : RO m ρ c
    = rowOfCol (Cert.ReferenceIdeal.Read.val_main_v47 (F := Ideal) (m ((c : Thread nD τ).loc main_arg1))) := by
  show rowOfCol (rowsCol (W5 m ρ c (Proc.devRef .tc main_v5))) = _
  rw [edge_rows]
  rfl

theorem CO_eq (c : Dev nD) : CO m ρ c
    = colOfCol (Cert.ReferenceIdeal.Read.val_main_v41 (F := Ideal) (m ((c : Thread nD τ).loc main_arg1))) := by
  show colOfCol (colsCol (W5 m ρ c (Proc.devRef .tc main_v6))) = _
  rw [edge_cols]
  rfl

theorem WO_eq (c : Dev nD) : WO m ρ c
    = wOfVec (Cert.ReferenceIdeal.Read.val_main_v34 (F := Ideal) (m ((c : Thread nD τ).loc main_arg1)) (m ((c : Thread nD τ).loc main_arg2))) := by
  show wOfVec (W5 m ρ c (Proc.devRef .tc main_v34)) = _
  rw [edge_weights]

end Cert.KernelIdeal.Values

end
-- ==== Proof.lean ====
/-
  Two programs for a two-layer graph convolution with a variational head are equal on the extended reals.

  The kernel's program multiplies by the weight matrices in four launches tiled over the 100000 nodes and leaves the
  neighbourhood sums (gather by source node, scale by the normalised edge weight, scatter-add to the target row) to
  host operations between the launches; it fuses each hidden layer's bias and rectifier into the next launch, joins
  the two heads' weight matrices side by side so that one neighbourhood sum serves both heads, and forms the sampled
  point and the divergence term in the last launch. The reference does every step on the host, head by head.

  Both are the specification `Cert.GcnSpec.out0` / `out1` of the arguments: a matrix product tiled over blocks of rows
  is the product; a neighbourhood sum acts column by column, so the sum of a product with two matrices side by side
  is the two sums side by side; rounding to bf16 is the identity on the extended reals; and `0 - x = -x`. The edge
  lists and the normalised edge weights are computed by the same host operations in both programs. No step uses
  that the inputs are finite.

  The three frames are the generated ones (the reference's is its generated run with the results dropped); the
  idealization rewrote nothing, so `preserves` is trivial.
-/
import proofs.«119687_j21904333209748_2_alg».proof.Defs
import proofs.«119687_j21904333209748_2_alg».proof.Proof.Gen.Kernel
import proofs.«119687_j21904333209748_2_alg».proof.Proof.Gen.Kernel.Frame
import proofs.«119687_j21904333209748_2_alg».proof.Proof.Gen.KernelIdeal
import proofs.«119687_j21904333209748_2_alg».proof.Proof.Gen.KernelIdeal.Frame
import proofs.«119687_j21904333209748_2_alg».proof.Proof.Gen.ReferenceIdeal
import proofs.«119687_j21904333209748_2_alg».proof.Proof.Gen.Pre_finite_inputs
import proofs.«119687_j21904333209748_2_alg».proof.Proof.Gen.ReferenceIdeal.Run
import proofs.«119687_j21904333209748_2_alg».proof.Proof.Gen.ReferenceIdeal.Read
import proofs.«119687_j21904333209748_2_alg».proof.Proof.KRun
import proofs.«119687_j21904333209748_2_alg».proof.Proof.KValue
import proofs.«119687_j21904333209748_2_alg».proof.Proof.Bridge
import proofs.«119687_j21904333209748_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's generated run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

set_option maxHeartbeats 1000000 in
/-- Both programs end with their two results at the specification's functions of the arguments: the kernel's by its
    run launch by launch, the reference's by its run operation by operation, over the same edge data. -/
theorem algebraic : Cert.algebraic_KernelIdeal_ReferenceIdeal := by
  intro m ρ m' ρ' _ hagree
  refine ⟨fun c => Cert.KernelIdeal.Gen.W12 m ρ c (Proc.devRef .tc Cert.KernelIdeal.main_v87_0), fun c => Cert.KernelIdeal.Gen.W12 m ρ c (Proc.devRef .tc Cert.KernelIdeal.main_v87_1), ?_, ?_⟩
  · exact Cert.KernelIdeal.Values.run_values m ρ
  · refine (θ_run Cert.ReferenceIdeal.defs _ _).mono (fun r h c => ⟨?_, ?_, (h c).2.2⟩)
      (Cert.ReferenceIdeal.Value.run (F := Ideal) m' ρ')
    · obtain ⟨a0, a1, a2, a3, a4, a5, a6, a7, a8, a9, a10, a11⟩ := hagree c
      rw [(h c).1, Cert.ReferenceIdeal.Read.val_main_v107_eq, a0, a1, a2, a3, a4, a5, a6, a7, a8, a9, a10, a11,
        Cert.ReferenceIdeal.RefValue.ref_out0 _ _ _ _ _ _ _ _ _ _ _ _ Cert.KernelIdeal.Gen.shapeCasts_S128_S1x128 Cert.KernelIdeal.Gen.shapeCasts_S64_S1x64]
      show _ = Cert.KernelIdeal.Gen.W12 m ρ c (Proc.devRef .tc Cert.KernelIdeal.main_v87_0)
      rw [Cert.KernelIdeal.Values.result0, Cert.KernelIdeal.Values.RO_eq, Cert.KernelIdeal.Values.CO_eq, Cert.KernelIdeal.Values.WO_eq]
    · obtain ⟨a0, a1, a2, a3, a4, a5, a6, a7, a8, a9, a10, a11⟩ := hagree c
      rw [(h c).2.1, Cert.ReferenceIdeal.Read.val_main_v116_eq, a0, a1, a2, a4, a5, a6, a7, a8, a9, a10, a11,
        Cert.ReferenceIdeal.RefValue.ref_out1 _ _ _ _ _ _ _ _ _ _ _ Cert.KernelIdeal.Gen.shapeCasts_S128_S1x128 Cert.KernelIdeal.Gen.shapeCasts_S64_S1x64]
      show _ = Cert.KernelIdeal.Gen.W12 m ρ c (Proc.devRef .tc Cert.KernelIdeal.main_v87_1)
      rw [Cert.KernelIdeal.Values.result1, Cert.KernelIdeal.Values.RO_eq, Cert.KernelIdeal.Values.CO_eq, Cert.KernelIdeal.Values.WO_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
